-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S850000x128 : Shape := ⟨2, ![850000, 128]⟩

abbrev nBuf : Space → Nat
  | .hbm => 85
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .bf16⟩
  | .hbm, ⟨42, _⟩ => ⟨S850000x128, .f32⟩
  | .hbm, ⟨43, _⟩ => ⟨S_, .f32⟩
  | .hbm, ⟨44, _⟩ => ⟨S50000x128, .f32⟩
  | .hbm, ⟨45, _⟩ => ⟨S850000x1, .i32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .bf16⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .bf16⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S1x128, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S5000x128, .bf16⟩
  | .local _ .vmem, ⟨28, _⟩ => ⟨S5000x128, .bf16⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S5000x128, .bf16⟩
  | .local _ .vmem, ⟨44, _⟩ => ⟨S5000x128, .bf16⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .bf16 = 32 ∨ (Rect.block (s := S50000x128) S5000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v30) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v44) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v14) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v45) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v44) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v57) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v58) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v59) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v60) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S850000x128 : Shape := ⟨2, ![850000, 128]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call2_cst : Ref sig .tc := ⟨.hbm, 99, rfl⟩
abbrev main_call2_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_11 : Ref sig .tc := ⟨.hbm, 104, rfl⟩
abbrev main_v73 : Ref sig .tc := ⟨.hbm, 105, rfl⟩
abbrev main_v74 : Ref sig .tc := ⟨.hbm, 106, rfl⟩
abbrev main_c_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_13 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call3_cst : Ref sig .tc := ⟨.hbm, 123, rfl⟩
abbrev main_call3_v0 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.Layers.lean ====
/-
  A residual graph-convolution network on the extended reals, as plain functions of its coordinates, in two groupings.

  A layer adds to the features `H` the rectified aggregate of the neighbours' projected features `H · W`, each
  neighbour `e` of node `n` weighted by `dinv (src e) · dinv n`.  One grouping scales the projected features by the
  source's factor before they are summed and multiplies the sum by the node's own factor afterwards (`layerK`); the
  other multiplies every message by both factors before summing (`layerR`).  They agree when every factor is a
  non-negative real number — a finite sum may be multiplied by such a number term by term whatever its terms are — and
  when every message summed into node `n` carries `n`'s factor as its target factor.
-/
import Mathlib.Data.EReal.Basic
import Mathlib.Data.EReal.Operations
import Mathlib.Algebra.BigOperators.Fin
import Idealize.ShloMosaic.PureOps.Ideal
import proofs.«139155_j37082747634276_2_alg».proof.Proof.LibFiniteSums

noncomputable section

open scoped BigOperators
open Idealize.ShloMosaic

namespace Cert.GraphLayers

variable {N E D K : ℕ}

/-- The row-by-column product of two matrices. -/
def mm {n k d : ℕ} (H : Fin n → Fin k → EReal) (W : Fin k → Fin d → EReal) : Fin n → Fin d → EReal :=
  fun a j => ∑ c : Fin k, H a c * W c j

/-- An affine layer. -/
def dense {n k d : ℕ} (H : Fin n → Fin k → EReal) (W : Fin k → Fin d → EReal) (b : Fin d → EReal) :
    Fin n → Fin d → EReal :=
  fun a j => mm H W a j + b j

/-- An affine layer followed by the rectifier. -/
def denseRelu {n k d : ℕ} (H : Fin n → Fin k → EReal) (W : Fin k → Fin d → EReal) (b : Fin d → EReal) :
    Fin n → Fin d → EReal :=
  fun a j => max (mm H W a j + b j) 0

/-- The projected features, each row scaled by its node's factor. -/
def scaled (dinv : Fin N → EReal) (H : Fin N → Fin K → EReal) (W : Fin K → Fin D → EReal) : Fin N → Fin D → EReal :=
  fun a j => mm H W a j * dinv a

/-- Row `n` of the aggregate: the sum, over the edges landing on `n`, of the source's row. -/
def aggregate (src : Fin E → Fin N) (hit : Fin N → Finset (Fin E)) (X : Fin N → Fin D → EReal) :
    Fin N → Fin D → EReal :=
  fun n j => ∑ e ∈ hit n, X (src e) j

/-- The update of the features with the aggregate: the node's own factor, the bias, the rectifier, the residual. -/
def combine (dinv : Fin N → EReal) (H A : Fin N → Fin D → EReal) (b : Fin D → EReal) : Fin N → Fin D → EReal :=
  fun n j => H n j + max (A n j * dinv n + b j) 0

/-- A layer with the source factor applied before the sum and the target factor after it. -/
def layerK (src : Fin E → Fin N) (hit : Fin N → Finset (Fin E)) (dinv : Fin N → EReal)
    (H : Fin N → Fin D → EReal) (W : Fin D → Fin D → EReal) (b : Fin D → EReal) : Fin N → Fin D → EReal :=
  combine dinv H (aggregate src hit (scaled dinv H W)) b

/-- A layer with both factors applied to every message before the sum. -/
def layerR (src tgt : Fin E → Fin N) (hit : Fin N → Finset (Fin E)) (dinv : Fin N → EReal)
    (H : Fin N → Fin D → EReal) (W : Fin D → Fin D → EReal) (b : Fin D → EReal) : Fin N → Fin D → EReal :=
  fun n j => H n j + max ((∑ e ∈ hit n, mm H W (src e) j * (dinv (src e) * dinv (tgt e))) + b j) 0

/-- The two groupings of a layer agree: the node's own non-negative real factor distributes over the sum of the
    messages, and every message landing on `n` has `n` as its target. -/
theorem layerK_eq_layerR (src tgt : Fin E → Fin N) (hit : Fin N → Finset (Fin E)) (dinv : Fin N → EReal)
    (hd : ∀ n, ∃ r : ℝ, 0 ≤ r ∧ dinv n = (r : EReal)) (ht : ∀ n, ∀ e ∈ hit n, tgt e = n)
    (H : Fin N → Fin D → EReal) (W : Fin D → Fin D → EReal) (b : Fin D → EReal) :
    layerK src hit dinv H W b = layerR src tgt hit dinv H W b := by
  funext n j
  have key : (∑ e ∈ hit n, mm H W (src e) j * dinv (src e)) * dinv n
      = ∑ e ∈ hit n, mm H W (src e) j * (dinv (src e) * dinv (tgt e)) := by
    obtain ⟨r, hr, hdr⟩ := hd n
    rw [hdr, Cert.LibFiniteSums.sum_mul_coe _ _ hr]
    refine Finset.sum_congr rfl fun e he => ?_
    rw [ht n e he, hdr, mul_assoc]
  show H n j + max ((∑ e ∈ hit n, mm H W (src e) j * dinv (src e)) * dinv n + b j) 0 = _
  rw [key]
  rfl

/-- The network: an input layer with the rectifier, three residual layers, an affine output layer. -/
def netK (src : Fin E → Fin N) (hit : Fin N → Finset (Fin E)) (dinv : Fin N → EReal)
    (x : Fin N → Fin K → EReal) (Win : Fin K → Fin D → EReal) (bin : Fin D → EReal)
    (W1 : Fin D → Fin D → EReal) (b1 : Fin D → EReal) (W2 : Fin D → Fin D → EReal) (b2 : Fin D → EReal)
    (W3 : Fin D → Fin D → EReal) (b3 : Fin D → EReal) (Wout : Fin D → Fin D → EReal) (bout : Fin D → EReal) :
    Fin N → Fin D → EReal :=
  dense (layerK src hit dinv (layerK src hit dinv (layerK src hit dinv (denseRelu x Win bin) W1 b1) W2 b2) W3 b3) Wout bout

/-- The same network with every message weighted before the sum. -/
def netR (src tgt : Fin E → Fin N) (hit : Fin N → Finset (Fin E)) (dinv : Fin N → EReal)
    (x : Fin N → Fin K → EReal) (Win : Fin K → Fin D → EReal) (bin : Fin D → EReal)
    (W1 : Fin D → Fin D → EReal) (b1 : Fin D → EReal) (W2 : Fin D → Fin D → EReal) (b2 : Fin D → EReal)
    (W3 : Fin D → Fin D → EReal) (b3 : Fin D → EReal) (Wout : Fin D → Fin D → EReal) (bout : Fin D → EReal) :
    Fin N → Fin D → EReal :=
  dense (layerR src tgt hit dinv (layerR src tgt hit dinv (layerR src tgt hit dinv (denseRelu x Win bin) W1 b1) W2 b2) W3 b3)
    Wout bout

theorem netK_eq_netR (src tgt : Fin E → Fin N) (hit : Fin N → Finset (Fin E)) (dinv : Fin N → EReal)
    (hd : ∀ n, ∃ r : ℝ, 0 ≤ r ∧ dinv n = (r : EReal)) (ht : ∀ n, ∀ e ∈ hit n, tgt e = n)
    (x : Fin N → Fin K → EReal) (Win : Fin K → Fin D → EReal) (bin : Fin D → EReal)
    (W1 : Fin D → Fin D → EReal) (b1 : Fin D → EReal) (W2 : Fin D → Fin D → EReal) (b2 : Fin D → EReal)
    (W3 : Fin D → Fin D → EReal) (b3 : Fin D → EReal) (Wout : Fin D → Fin D → EReal) (bout : Fin D → EReal) :
    netK src hit dinv x Win bin W1 b1 W2 b2 W3 b3 Wout bout
      = netR src tgt hit dinv x Win bin W1 b1 W2 b2 W3 b3 Wout bout := by
  unfold netK netR
  rw [layerK_eq_layerR src tgt hit dinv hd ht, layerK_eq_layerR src tgt hit dinv hd ht,
    layerK_eq_layerR src tgt hit dinv hd ht]

/-- The reciprocal square root of an extended real that is at least one is a non-negative real number (zero at
    `+∞`). -/
theorem rsqrt_real_of_one_le (y : EReal) (h : 1 ≤ y) : ∃ r : ℝ, 0 ≤ r ∧ Ideal.rsqrt y = (r : EReal) := by
  induction y using EReal.rec with
  | bot => exact absurd h (not_le.mpr (EReal.bot_lt_coe 1))
  | top => exact ⟨0, le_rfl, by simp⟩
  | coe r =>
    have hr : (1 : ℝ) ≤ r := by exact_mod_cast h
    refine ⟨(Real.sqrt r)⁻¹, inv_nonneg.mpr (Real.sqrt_nonneg r), ?_⟩
    rw [Ideal.rsqrt_coe, if_neg (by linarith), if_neg (by linarith)]

end Cert.GraphLayers

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.GraphData.lean ====
/-
  The graph's index data, as both programs compute it from the edge list, and what it says edge by edge.

  An edge list `ei` of shape [2, 800000] (row 0 the sources, row 1 the targets) is extended by one self loop per node:
  the source words and the target words are each 800000 words of `ei` followed by the node numbers 0 … 49999.  A word
  used as a gather index is first moved up by the number of nodes when it is negative, and the gather then clamps it into
  the node range; a word used as a scatter index is used as it is, and an update whose word is not a node number is
  dropped.  The degree of a node counts the edges scattered onto it, and its factor `dinv` is the reciprocal square root
  of the larger of its degree and one.

  Edge by edge: `src e` is the node an edge gathers from, `hit n` the edges whose update lands on node `n`, `tgt e` the
  node the target word of `e` gathers from.  An edge landing on `n` has the word `n` itself as its target word, so
  `tgt e = n`; and every factor is a non-negative real number, the reciprocal square root of something at least one.
-/
import proofs.«139155_j37082747634276_2_alg».proof.KernelIdeal
import proofs.«139155_j37082747634276_2_alg».proof.Proof.LibRowGatherScatter
import proofs.«139155_j37082747634276_2_alg».proof.Proof.Layers
import proofs.«139155_j37082747634276_2_alg».proof.Proof.LibHostMatmul
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.Graph

open Idealize.ShloMosaic Idealize.ShloMosaic.ValueIdx Idealize.ShloMosaic.RowGatherScatter
open Cert.KernelIdeal

variable [Cert.KernelIdeal.Facts]
open Cert.KernelIdeal.Facts₀

/-- An array of 32-bit words of a given shape. -/
abbrev Words (s : Shape) : Type := (⟨s, .i32⟩ : BufTy).Contents (Elt Ideal)
/-- An array of extended reals of a given shape. -/
abbrev Reals (s : Shape) : Type := (⟨s, .f32⟩ : BufTy).Contents (Elt Ideal)

/-- The source words: row 0 of the edge list, then the node numbers. -/
def rowWords (ei : Words S2x800000) : Words S850000 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The target words: row 1 of the edge list, then the node numbers. -/
def colWords (ei : Words S2x800000) : Words S850000 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- One index word, moved up by the number of nodes when it is negative. -/
def normWord (v : BitVec 32) : BitVec 32 := Scalar.select (IntOp.cmpi .slt v 0#32) (IntOp.addi v 50000#32) v

/-- Gather indices: each word moved up when negative, one index per row. -/
def normIdx (v : Words S850000) : Words S850000x1 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Scatter indices: the words as they are, one index per row. -/
def rawIdx (v : Words S850000) : Words S850000x1 :=
  broadcastInDim S850000x1 ![0] bcast_S850000_S850000x1_0 v

/-- The degrees: ones scattered onto zeros by the target words. -/
def degree (cw : Words S850000) : Reals S50000 :=
  Host.scatterAdd (F := Ideal) scatter_S50000_S850000x1_S850000_n_0_0_1
    (broadcastInDim S50000 ![] bcast_S_S50000 (constant (F := Ideal) S_ .f32 0x00000000#32))
    (rawIdx cw)
    (broadcastInDim S850000 ![] bcast_S_S850000 (constant (F := Ideal) S_ .f32 0x3F800000#32))

/-- The nodes' factors: the reciprocal square root of the larger of the degree and one. -/
def dinvArr (cw : Words S850000) : Reals S50000 :=
  Host.rsqrt (F := Ideal)
    (maximumf (degree cw) (broadcastInDim S50000 ![] bcast_S_S50000 (constant (F := Ideal) S_ .f32 0x3F800000#32)))

/-- The aggregate of a node array's rows: each edge gathers its source's row, and the rows are summed onto zeros at the
    edges' targets. -/
def aggregateRows (rw cw : Words S850000) (X : (⟨S50000x128, .bf16⟩ : BufTy).Contents (Elt Ideal)) : Reals S50000x128 :=
  Host.scatterAdd (F := Ideal) scatter_S50000x128_S850000x1_S850000x128_1_0_0_1
    (broadcastInDim S50000x128 ![] bcast_S_S50000x128 (constant (F := Ideal) S_ .f32 0x00000000#32))
    (rawIdx cw)
    (extf .f32 (Host.gather gather_S50000x128_S850000x1_S850000x128_1_0_n_n_0_1_1128 X (normIdx rw)) bitsLt_bf16_f32)

/-! ## Edge by edge -/

theorem nodes_pos : 0 < 50000 := by decide

/-- The node edge `e` gathers from. -/
def src (ei : Words S2x800000) (e : Fin 850000) : Fin 50000 :=
  clampRow 50000 nodes_pos (normIdx (rowWords ei) (ix2 e (0 : Fin 1)))

/-- The node the target word of edge `e` gathers from. -/
def tgt (ei : Words S2x800000) (e : Fin 850000) : Fin 50000 :=
  clampRow 50000 nodes_pos (normIdx (colWords ei) (ix2 e (0 : Fin 1)))

/-- The edges whose update lands on node `n`. -/
def hit (ei : Words S2x800000) (n : Fin 50000) : Finset (Fin 850000) :=
  Finset.univ.filter fun e => (rawIdx (colWords ei) (ix2 e (0 : Fin 1))).toInt = (n.val : Int)

/-- Node `n`'s factor. -/
def dinv (ei : Words S2x800000) (n : Fin 50000) : EReal := dinvArr (colWords ei) (ix1 n)

/-- The gather index of a word array at row `e` is that row's word, moved up when negative. -/
theorem normIdx_apply (v : Words S850000) (e : Fin 850000) :
    normIdx v (ix2 e (0 : Fin 1)) = normWord (v (ix1 e)) := by
  unfold normIdx
  rw [broadcastInDim_apply _ bcast_S850000_S850000x1_0 _ (ix2 e (0 : Fin 1)) (ix1 e) (fun a => match a with
    | ⟨0, _⟩ => by show e.val = if (850000 : Nat) = 1 then 0 else e.val; rw [if_neg (by decide)])]
  rfl

/-- The scatter index of a word array at row `e` is that row's word. -/
theorem rawIdx_apply (v : Words S850000) (e : Fin 850000) :
    rawIdx v (ix2 e (0 : Fin 1)) = v (ix1 e) := by
  unfold rawIdx
  exact broadcastInDim_apply _ bcast_S850000_S850000x1_0 _ (ix2 e (0 : Fin 1)) (ix1 e) (fun a => match a with
    | ⟨0, _⟩ => by show e.val = if (850000 : Nat) = 1 then 0 else e.val; rw [if_neg (by decide)])

end Cert.Graph

end
-- ==== Proof.GraphFacts.lean ====
/-
  Two facts about the graph's index data, edge by edge: an edge whose update lands on node `n` has `n` as the node its
  target word gathers from (the word is `n` itself: not negative, so it is not moved, and inside the node range, so it is
  not clamped); and every node's factor is a non-negative real number, the reciprocal square root of an extended real
  that is at least one.
-/
import proofs.«139155_j37082747634276_2_alg».proof.Proof.GraphData

set_option maxRecDepth 16384

noncomputable section

namespace Cert.Graph

open Idealize.ShloMosaic Idealize.ShloMosaic.ValueIdx Idealize.ShloMosaic.RowGatherScatter
open Cert.KernelIdeal

variable [Cert.KernelIdeal.Facts]
open Cert.KernelIdeal.Facts₀

/-- An edge landing on node `n` has `n` as the node its target word gathers from. -/
theorem tgt_of_hit (ei : Words S2x800000) (n : Fin 50000) (e : Fin 850000) (he : e ∈ hit ei n) : tgt ei e = n := by
  unfold hit at he
  rw [Finset.mem_filter, rawIdx_apply] at he
  have h : (colWords ei (ix1 e)).toInt = (n.val : Int) := he.2
  unfold tgt
  rw [normIdx_apply]
  unfold normWord
  rw [normalised_of_toInt _ n.val h]
  exact clampRow_of_toInt nodes_pos _ n h

/-- The reciprocal square root of the larger of two arrays, at one element. -/
theorem rsqrt_max_apply (dg ones : FVec Ideal S50000 .f32) (n : Fin 50000) :
    Host.rsqrt (F := Ideal) (maximumf dg ones) (ix1 n) = Ideal.rsqrt (max (dg (ix1 n)) (ones (ix1 n))) := rfl

/-- Every factor is a non-negative real number. -/
theorem dinv_real (ei : Words S2x800000) (n : Fin 50000) : ∃ r : ℝ, 0 ≤ r ∧ dinv ei n = (r : EReal) := by
  unfold dinv dinvArr
  generalize degree (colWords ei) = dg
  generalize hb : broadcastInDim S50000 ![] bcast_S_S50000 (constant (F := Ideal) S_ .f32 0x3F800000#32) = ones
  rw [rsqrt_max_apply dg ones n]
  refine Cert.GraphLayers.rsqrt_real_of_one_le _ (le_max_of_le_right ?_)
  rw [← hb, Idealize.ShloMosaic.DenseLayers.broadcastInDim_scalar_constant_apply, Ideal.ofBits_one_f32]

end Cert.Graph

end
-- ==== Proof.KernelRun.lean ====
/-
  The idealized kernel program's run with its result named.

  @main is thirteen segments: five stretches of host operations and eight pipelined regions.  The buffers' contents at
  every boundary are a fold from the launch memory (`Gen.W0` … `Gen.W13`): a host stretch rewrites the buffers its
  operations write, a region leaves in each of its output arrays what its write-backs leave and every other buffer as
  it found it.  Every weakly fair execution ends with each unscoped buffer at the last boundary's contents; read at the
  result buffer this names the result, and read at the argument buffers it gives them back as launched.
-/
import proofs.«139155_j37082747634276_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.RunValue

end
-- ==== Proof.Views.lean ====
/-
  Arrays of extended reals seen through their coordinates: a rank-2 array as a function of its row and column, a rank-1
  array as a function of its coordinate, a one-column or one-row array as a function of the other coordinate, and back.
-/
import Mathlib.Data.EReal.Basic
import Idealize.ShloMosaic.Lib.ValueIdx

noncomputable section

namespace Cert.Views

open Idealize.ShloMosaic Idealize.ShloMosaic.ValueIdx

/-- A rank-2 array as a function of row and column. -/
def mat {a b : ℕ} (X : (⟨2, ![a, b]⟩ : Shape).Idx → EReal) : Fin a → Fin b → EReal := fun p q => X (ix2 p q)

/-- A rank-1 array as a function of its coordinate. -/
def vec {a : ℕ} (X : (⟨1, ![a]⟩ : Shape).Idx → EReal) : Fin a → EReal := fun p => X (ix1 p)

/-- A one-column array as a function of the row. -/
def colOf {a : ℕ} (X : (⟨2, ![a, 1]⟩ : Shape).Idx → EReal) : Fin a → EReal := fun p => X (ix2 p (0 : Fin 1))

/-- A one-row array as a function of the column. -/
def rowOf {b : ℕ} (X : (⟨2, ![1, b]⟩ : Shape).Idx → EReal) : Fin b → EReal := fun q => X (ix2 (0 : Fin 1) q)

/-- A function of row and column as a rank-2 array. -/
def arr {a b : ℕ} (G : Fin a → Fin b → EReal) : (⟨2, ![a, b]⟩ : Shape).Idx → EReal := fun i => G (i 0) (i 1)

theorem arr_ix2 {a b : ℕ} (G : Fin a → Fin b → EReal) (p : Fin a) (q : Fin b) : arr G (ix2 p q) = G p q := rfl

theorem mat_arr {a b : ℕ} (G : Fin a → Fin b → EReal) : mat (arr G) = G := rfl

theorem arr_mat {a b : ℕ} (X : (⟨2, ![a, b]⟩ : Shape).Idx → EReal) : arr (mat X) = X := by
  funext i
  obtain ⟨p, q, rfl⟩ : ∃ (p : Fin a) (q : Fin b), i = ix2 p q := ⟨i 0, i 1, eq_ix2 i⟩
  rfl

end Cert.Views

end
-- ==== Proof.LibScatterAddSum.lean ====
/-
  The accumulating float scatter on the extended reals, read at an index.

  At the exact instance a scatter-add delivers each operand element plus the sum of the update elements that land on
  it.  For a scatter of whole rows (and of single elements of a flat array) with one scalar index per update row, the
  updates landing on row `n` are those of the update rows whose index, read signed, is `n`: the sum over update
  indices becomes a sum over those update rows.
-/
import Idealize.ShloMosaic.PureOps.Ideal
import Idealize.ShloMosaic.Lib.ValueIdx
import proofs.«139155_j37082747634276_2_alg».proof.Proof.LibRowGatherScatter

noncomputable section

open scoped BigOperators

namespace Idealize.ShloMosaic.RowGatherScatter

open Idealize.ShloMosaic Idealize.ShloMosaic.ValueIdx

/-- Two rank-2 indices built from coordinates are equal only when the coordinates are. -/
theorem ix2_inj {n0 n1 : Nat} {a a' : Fin n0} {b b' : Fin n1} (h : ix2 a b = ix2 a' b') : a = a' ∧ b = b' :=
  ⟨congrFun h 0, congrFun h 1⟩

/-- Two rank-1 indices built from a coordinate are equal only when the coordinates are. -/
theorem ix1_inj {n0 : Nat} {a a' : Fin n0} (h : ix1 a = ix1 a') : a = a' := congrFun h 0

/-- THE ROW SCATTER-ADD READ AT `(n, j)`: the operand's element plus the sum, over the update rows `e` whose scatter
    index `idx[e, 0]` read signed is `n`, of the update's element `(e, j)`. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScatterDims N E D wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, rowScatter_resultIdx?_of_toInt wf idx e j n he.2⟩
  · intro a _ b _ h
    exact (ix2_inj h).1
  · intro u hu
    rw [Finset.mem_filter] at hu
    obtain ⟨p, q, rfl⟩ : ∃ (p : Fin E) (q : Fin D), u = ix2 p q := ⟨u 0, u 1, eq_ix2 u⟩
    obtain ⟨n', hn', hidx⟩ := rowScatter_resultIdx?_eq_some wf idx p q _ hu.2
    obtain ⟨hn, hj⟩ := ix2_inj hn'
    subst hn
    subst hj
    exact ⟨p, Finset.mem_filter.mpr ⟨Finset.mem_univ _, hidx⟩, rfl⟩
  · intro e _
    rfl

/-- THE ELEMENT SCATTER-ADD READ AT `n`: the operand's element plus the sum, over the updates `e` whose scatter index
    `idx[e, 0]` read signed is `n`, of the update's element `e`. -/
theorem elemScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (elemScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, elemScatter_resultIdx?_of_toInt wf idx e n he.2⟩
  · intro a _ b _ h
    exact ix1_inj h
  · intro u hu
    rw [Finset.mem_filter] at hu
    obtain ⟨p, rfl⟩ : ∃ (p : Fin E), u = ix1 p := ⟨u 0, eq_ix1 u⟩
    obtain ⟨n', hn', hidx⟩ := elemScatter_resultIdx?_eq_some wf idx p _ hu.2
    have hn := ix1_inj hn'
    subst hn
    exact ⟨p, Finset.mem_filter.mpr ⟨Finset.mem_univ _, hidx⟩, rfl⟩
  · intro e _
    rfl

end Idealize.ShloMosaic.RowGatherScatter

end
-- ==== Proof.KernelValue.lean ====
/-
  The kernel program's network, array by array, and that it is the network `netK` of its coordinates.

  Array by array: every pallas region turns whole arrays into a whole array (an affine layer, a scaled product, a residual
  update), the bias enters as a one-row array, the factors as a one-column array, and between a scaled product and its
  residual update the host gathers the scaled product's rows by the edges' sources and sums them onto zeros at the edges'
  targets.  Read at an entry (n, j), that gather-and-sum is the sum over the edges landing on n of the scaled product
  at (src e, j): a row gather reads the row its clamped index names, a row scatter-add delivers to row n the updates
  whose index word is n, and zero plus a sum is the sum.
-/
import proofs.«139155_j37082747634276_2_alg».proof.Proof.GraphData
import proofs.«139155_j37082747634276_2_alg».proof.Proof.Views
import proofs.«139155_j37082747634276_2_alg».proof.Proof.Layers
import proofs.«139155_j37082747634276_2_alg».proof.Proof.LibRowGatherScatter
import proofs.«139155_j37082747634276_2_alg».proof.Proof.LibScatterAddSum
import proofs.«139155_j37082747634276_2_alg».proof.Proof.LibHostMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Nested

open Idealize.ShloMosaic Idealize.ShloMosaic.ValueIdx Idealize.ShloMosaic.RowGatherScatter
open Cert.KernelIdeal Cert.Graph Cert.Views Cert.GraphLayers

variable [Cert.KernelIdeal.Facts]
open Cert.KernelIdeal.Facts₀

/-- A node array of 128 features. -/
abbrev Feat : Type := S50000x128.Idx → EReal

/-- The input layer as arrays. -/
def denseReluArr (X : Feat) (W : S128x128.Idx → EReal) (B : S1x128.Idx → EReal) : Feat :=
  arr (a := 50000) (b := 128) (denseRelu (mat (a := 50000) (b := 128) X) (mat (a := 128) (b := 128) W) (rowOf (b := 128) B))

/-- The output layer as arrays. -/
def denseArr (X : Feat) (W : S128x128.Idx → EReal) (B : S1x128.Idx → EReal) : Feat :=
  arr (a := 50000) (b := 128) (dense (mat (a := 50000) (b := 128) X) (mat (a := 128) (b := 128) W) (rowOf (b := 128) B))

/-- The scaled product as arrays. -/
def scaleArr (H : Feat) (W : S128x128.Idx → EReal) (D : S50000x1.Idx → EReal) : Feat :=
  arr (a := 50000) (b := 128) (scaled (colOf (a := 50000) D) (mat (a := 50000) (b := 128) H) (mat (a := 128) (b := 128) W))

/-- The residual update as arrays. -/
def combineArr (H Ag : Feat) (D : S50000x1.Idx → EReal) (B : S1x128.Idx → EReal) : Feat :=
  arr (a := 50000) (b := 128) (combine (colOf (a := 50000) D) (mat (a := 50000) (b := 128) H) (mat (a := 50000) (b := 128) Ag)
    (rowOf (b := 128) B))

/-- A bias as the one-row array the regions read. -/
def biasRow (b : S128.Idx → EReal) : S1x128.Idx → EReal := shapeCast S1x128 b shapeCasts_S128_S1x128

/-- The factors as the one-column array the regions read. -/
def dinvCol (ei : Words S2x800000) : S50000x1.Idx → EReal :=
  shapeCast S50000x1 (dinvArr (colWords ei)) shapeCasts_S50000_S50000x1

/-- One residual layer of the kernel program: scaled product, gather-and-sum, residual update. -/
def layerArr (ei : Words S2x800000) (H : Feat) (W : S128x128.Idx → EReal) (b : S128.Idx → EReal) : Feat :=
  combineArr H (aggregateRows (rowWords ei) (colWords ei) (scaleArr H W (dinvCol ei))) (dinvCol ei) (biasRow b)

/-- The kernel program's network as arrays. -/
def netArr (ei : Words S2x800000) (x : Feat) (Win : S128x128.Idx → EReal) (bin : S128.Idx → EReal)
    (W1 : S128x128.Idx → EReal) (b1 : S128.Idx → EReal) (W2 : S128x128.Idx → EReal) (b2 : S128.Idx → EReal)
    (W3 : S128x128.Idx → EReal) (b3 : S128.Idx → EReal) (Wout : S128x128.Idx → EReal) (bout : S128.Idx → EReal) : Feat :=
  denseArr (layerArr ei (layerArr ei (layerArr ei (denseReluArr x Win (biasRow bin)) W1 b1) W2 b2) W3 b3) Wout (biasRow bout)

/-! ## Read through their coordinates -/

/-- The one-row bias array is the bias. -/
theorem rowOf_biasRow (b : S128.Idx → EReal) : rowOf (b := 128) (biasRow b) = vec (a := 128) b := by
  funext q
  exact shapeCast_a_1a_apply b shapeCasts_S128_S1x128 (0 : Fin 1) q

/-- The one-column factor array is the factors. -/
theorem colOf_dinvCol (ei : Words S2x800000) : colOf (a := 50000) (dinvCol ei) = dinv ei := by
  funext p
  show shapeCast S50000x1 (dinvArr (colWords ei)) shapeCasts_S50000_S50000x1 (ix2 p (0 : Fin 1)) = dinvArr (colWords ei) (ix1 p)
  refine shapeCast_apply (dinvArr (colWords ei)) shapeCasts_S50000_S50000x1 (ix2 p (0 : Fin 1)) (ix1 p) ?_
  rw [Shape.rowMajor_val_two, Shape.rowMajor_val_one]
  show p.val = p.val * 1 + 0
  omega

/-- The program's row-scatter dimension numbers are those of a scatter of whole rows by one index per row. -/
theorem scatterRows_eq : scatter_S50000x128_S850000x1_S850000x128_1_0_0_1
    = rowScatterDims 50000 850000 128 Facts₀.scatter_S50000x128_S850000x1_S850000x128_1_0_0_1_wf := rfl

/-- The program's row-gather dimension numbers are those of a gather of whole rows by one index per row. -/
theorem gatherRows_eq : gather_S50000x128_S850000x1_S850000x128_1_0_n_n_0_1_1128
    = rowGatherDims 50000 850000 128 Facts₀.gather_S50000x128_S850000x1_S850000x128_1_0_n_n_0_1_1128_wf := rfl

/-- The program's row scatter-add onto an array, at an entry: the array's entry plus the updates whose index word is the
    row. -/
theorem scatterAddRows_apply (x : Feat) (idx : Words S850000x1) (upd : S850000x128.Idx → EReal) (n : Fin 50000) (j : Fin 128) :
    Host.scatterAdd (F := Ideal) (φ := .f32) scatter_S50000x128_S850000x1_S850000x128_1_0_0_1 x idx upd (ix2 n j)
      = x (ix2 n j) + ∑ e ∈ Finset.univ.filter (fun e : Fin 850000 => (idx (ix2 e (0 : Fin 1))).toInt = (n.val : Int)),
          upd (ix2 e j) := by
  unfold Host.scatterAdd
  rw [Ideal.hostScatterAdd_def, scatterRows_eq]
  exact rowScatterAdd_apply _ x idx upd n j

/-- The program's row gather, at an entry: the operand's row at the clamped index. -/
theorem gatherRows_apply (X : Feat) (idx : Words S850000x1) (e : Fin 850000) (j : Fin 128) :
    Host.gather gather_S50000x128_S850000x1_S850000x128_1_0_n_n_0_1_1128 X idx (ix2 e j)
      = X (ix2 (clampRow 50000 nodes_pos (idx (ix2 e (0 : Fin 1)))) j) := by
  rw [gatherRows_eq]
  exact gather_rows_apply nodes_pos _ X idx e j

/-- The gather-and-sum at an entry: the sum over the edges landing on the node of the gathered source rows. -/
theorem mat_aggregateRows (ei : Words S2x800000) (X : Feat) :
    mat (a := 50000) (b := 128) (aggregateRows (rowWords ei) (colWords ei) X)
      = aggregate (src ei) (hit ei) (mat (a := 50000) (b := 128) X) := by
  funext n j
  unfold aggregate hit src mat aggregateRows
  generalize hz : broadcastInDim S50000x128 ![] bcast_S_S50000x128 (constant (F := Ideal) S_ .f32 0x00000000#32) = zeros
  rw [scatterAddRows_apply, ← hz, Idealize.ShloMosaic.DenseLayers.broadcastInDim_scalar_constant_apply, Ideal.ofBits_zero_f32,
    zero_add]
  refine Finset.sum_congr rfl fun e _ => ?_
  rw [extf_apply, gatherRows_apply]

/-- One residual layer of the kernel program is the layer `layerK` of its coordinates. -/
theorem mat_layerArr (ei : Words S2x800000) (H : Feat) (W : S128x128.Idx → EReal) (b : S128.Idx → EReal) :
    mat (a := 50000) (b := 128) (layerArr ei H W b)
      = layerK (src ei) (hit ei) (dinv ei) (mat (a := 50000) (b := 128) H) (mat (a := 128) (b := 128) W) (vec (a := 128) b) := by
  unfold layerArr combineArr scaleArr layerK
  rw [mat_arr, mat_aggregateRows, mat_arr, colOf_dinvCol, rowOf_biasRow]

/-- The kernel program's network as arrays is the network `netK` of its coordinates. -/
theorem netArr_eq (ei : Words S2x800000) (x : Feat) (Win : S128x128.Idx → EReal) (bin : S128.Idx → EReal)
    (W1 : S128x128.Idx → EReal) (b1 : S128.Idx → EReal) (W2 : S128x128.Idx → EReal) (b2 : S128.Idx → EReal)
    (W3 : S128x128.Idx → EReal) (b3 : S128.Idx → EReal) (Wout : S128x128.Idx → EReal) (bout : S128.Idx → EReal) :
    netArr ei x Win bin W1 b1 W2 b2 W3 b3 Wout bout
      = arr (a := 50000) (b := 128) (netK (src ei) (hit ei) (dinv ei) (mat (a := 50000) (b := 128) x)
          (mat (a := 128) (b := 128) Win) (vec (a := 128) bin) (mat (a := 128) (b := 128) W1) (vec (a := 128) b1)
          (mat (a := 128) (b := 128) W2) (vec (a := 128) b2) (mat (a := 128) (b := 128) W3) (vec (a := 128) b3)
          (mat (a := 128) (b := 128) Wout) (vec (a := 128) bout)) := by
  unfold netArr denseArr denseReluArr netK
  rw [mat_layerArr, mat_layerArr, mat_layerArr, mat_arr, rowOf_biasRow, rowOf_biasRow]

end Cert.KernelIdeal.Nested

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Payloads.lean ====
/-
  What each kernel body stores, read at an entry (p, q) of its 5000 × 128 block, at the ideal values, as a term of the
  vectors it loaded.  Format changes are the identity there and the matrix product into a zero accumulator is the plain
  sum over the contracted coordinate, so:
    the affine kernels store  max((Σ_c x(p,c)·w(c,q)) + b(0,q), 0)  and  (Σ_c x(p,c)·w(c,q)) + b(0,q);
    the scaling kernel stores (Σ_c x(p,c)·w(c,q)) · d(p,0);
    the residual kernel stores h(p,q) + max(a(p,q)·d(p,0) + b(0,q), 0).
-/
import proofs.«139155_j37082747634276_2_alg».proof.Proof.Gen.KernelIdeal.Skeleton
import proofs.«139155_j37082747634276_2_alg».proof.Proof.LibDenseLayers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payloads

open Idealize.ShloMosaic Idealize.ShloMosaic.ValueIdx Idealize.ShloMosaic.DenseLayers
open Cert.KernelIdeal Cert.KernelIdeal.Gen Cert.KernelIdeal.Facts₀

/-- A one-row array broadcast along the first axis reads its entry of the same column. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- The block's matrix product into a zero accumulator, at an entry. -/
theorem mm_block {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  matmul_rowcol_zero_apply Facts₀.dot_S5000x128_S128x128_S5000x128_1_0_0_1_n_n_wf none A B p q

/-- The zero offsets of a whole-block access, spelt as a constant function. -/
theorem hz : (![0, 0] : Fin 2 → Nat) = fun _ => 0 := funext fun a => by fin_cases a <;> rfl

theorem zero_word : Scalar.ofBits (F := Ideal) .f32 0x00000000#32 = 0 := Ideal.ofBits_zero_f32

/-- The input layer's kernel: the affine map of the block's rows, rectified. -/
theorem pay_denseRelu (x0 : Vec Ideal S5000x128 .f32) (x1 : Vec Ideal S128x128 .f32) (x2 : Vec Ideal S1x128 .f32)
    (p : Fin 5000) (q : Fin 128) :
    k0_pay1 x0 x1 x2 (ix2 p q) = max ((∑ c : Fin 128, x0 (ix2 p c) * x1 (ix2 c q)) + x2 (ix2 (0 : Fin 1) q)) 0 := by
  unfold k0_pay1
  rw [maximumf_apply, addf_apply, broadcast_apply, mm_block, shapeCast_self, broadcastTo_row_apply, zero_word]
  rfl

/-- The output layer's kernel: the affine map of the block's rows. -/
theorem pay_dense (x0 : Vec Ideal S5000x128 .f32) (x1 : Vec Ideal S128x128 .f32) (x2 : Vec Ideal S1x128 .f32)
    (p : Fin 5000) (q : Fin 128) :
    k7_pay1 x0 x1 x2 (ix2 p q) = (∑ c : Fin 128, x0 (ix2 p c) * x1 (ix2 c q)) + x2 (ix2 (0 : Fin 1) q) := by
  unfold k7_pay1
  rw [addf_apply, mm_block, shapeCast_self, shapeCast_self, broadcastTo_row_apply]
  rfl

/-- A scaling kernel (region 1): the block's rows times the weights, each row scaled by its node's factor. -/
theorem pay_scale1 (x0 : Vec Ideal S5000x128 .f32) (x1 : Vec Ideal S128x128 .f32) (x2 : Vec Ideal S5000x1 .f32)
    (p : Fin 5000) (q : Fin 128) :
    k1_pay1 x0 x1 x2 (ix2 p q) = (∑ c : Fin 128, x0 (ix2 p c) * x1 (ix2 c q)) * x2 (ix2 p (0 : Fin 1)) := by
  unfold k1_pay1
  simp only [shapeCast_self]
  rw [truncf_apply, mulf_apply, mm_block, broadcastTo_column_apply]
  rfl

/-- A scaling kernel (region 3): the block's rows times the weights, each row scaled by its node's factor. -/
theorem pay_scale3 (x0 : Vec Ideal S5000x128 .f32) (x1 : Vec Ideal S128x128 .f32) (x2 : Vec Ideal S5000x1 .f32)
    (p : Fin 5000) (q : Fin 128) :
    k3_pay1 x0 x1 x2 (ix2 p q) = (∑ c : Fin 128, x0 (ix2 p c) * x1 (ix2 c q)) * x2 (ix2 p (0 : Fin 1)) := by
  unfold k3_pay1
  simp only [shapeCast_self]
  rw [truncf_apply, mulf_apply, mm_block, broadcastTo_column_apply]
  rfl

/-- A scaling kernel (region 5): the block's rows times the weights, each row scaled by its node's factor. -/
theorem pay_scale5 (x0 : Vec Ideal S5000x128 .f32) (x1 : Vec Ideal S128x128 .f32) (x2 : Vec Ideal S5000x1 .f32)
    (p : Fin 5000) (q : Fin 128) :
    k5_pay1 x0 x1 x2 (ix2 p q) = (∑ c : Fin 128, x0 (ix2 p c) * x1 (ix2 c q)) * x2 (ix2 p (0 : Fin 1)) := by
  unfold k5_pay1
  simp only [shapeCast_self]
  rw [truncf_apply, mulf_apply, mm_block, broadcastTo_column_apply]
  rfl

/-- A residual kernel (region 2): the features plus the rectified, scaled and biased aggregate. The body loads the
    aggregate, the factors, the bias and the features in that order. -/
theorem pay_residual2 (a : Vec Ideal S5000x128 .f32) (d : Vec Ideal S5000x1 .f32) (b : Vec Ideal S1x128 .f32)
    (h : Vec Ideal S5000x128 .f32) (p : Fin 5000) (q : Fin 128) :
    k2_pay1 a d b h (ix2 p q)
      = h (ix2 p q) + max (a (ix2 p q) * d (ix2 p (0 : Fin 1)) + b (ix2 (0 : Fin 1) q)) 0 := by
  unfold k2_pay1
  simp only [shapeCast_self]
  rw [addf_apply, maximumf_apply, addf_apply, mulf_apply, broadcast_apply, broadcastTo_column_apply,
    broadcastTo_row_apply, zero_word]

/-- A residual kernel (region 4): the features plus the rectified, scaled and biased aggregate. The body loads the
    aggregate, the factors, the bias and the features in that order. -/
theorem pay_residual4 (a : Vec Ideal S5000x128 .f32) (d : Vec Ideal S5000x1 .f32) (b : Vec Ideal S1x128 .f32)
    (h : Vec Ideal S5000x128 .f32) (p : Fin 5000) (q : Fin 128) :
    k4_pay1 a d b h (ix2 p q)
      = h (ix2 p q) + max (a (ix2 p q) * d (ix2 p (0 : Fin 1)) + b (ix2 (0 : Fin 1) q)) 0 := by
  unfold k4_pay1
  simp only [shapeCast_self]
  rw [addf_apply, maximumf_apply, addf_apply, mulf_apply, broadcast_apply, broadcastTo_column_apply,
    broadcastTo_row_apply, zero_word]

/-- A residual kernel (region 6): the features plus the rectified, scaled and biased aggregate. The body loads the
    aggregate, the factors, the bias and the features in that order. -/
theorem pay_residual6 (a : Vec Ideal S5000x128 .f32) (d : Vec Ideal S5000x1 .f32) (b : Vec Ideal S1x128 .f32)
    (h : Vec Ideal S5000x128 .f32) (p : Fin 5000) (q : Fin 128) :
    k6_pay1 a d b h (ix2 p q)
      = h (ix2 p q) + max (a (ix2 p q) * d (ix2 p (0 : Fin 1)) + b (ix2 (0 : Fin 1) q)) 0 := by
  unfold k6_pay1
  simp only [shapeCast_self]
  rw [addf_apply, maximumf_apply, addf_apply, mulf_apply, broadcast_apply, broadcastTo_column_apply,
    broadcastTo_row_apply, zero_word]

/-! ## The same at an arbitrary index of the block -/

theorem pay_denseRelu_at (x0 : Vec Ideal S5000x128 .f32) (x1 : Vec Ideal S128x128 .f32) (x2 : Vec Ideal S1x128 .f32)
    (j : S5000x128.Idx) :
    k0_pay1 x0 x1 x2 j = max ((∑ c : Fin 128, x0 (ix2 (j 0) c) * x1 (ix2 c (j 1))) + x2 (ix2 (0 : Fin 1) (j 1))) 0 := by
  obtain ⟨p, q, rfl⟩ : ∃ (p : Fin 5000) (q : Fin 128), j = ix2 p q := ⟨j 0, j 1, eq_ix2 j⟩
  exact pay_denseRelu x0 x1 x2 p q

theorem pay_dense_at (x0 : Vec Ideal S5000x128 .f32) (x1 : Vec Ideal S128x128 .f32) (x2 : Vec Ideal S1x128 .f32)
    (j : S5000x128.Idx) :
    k7_pay1 x0 x1 x2 j = (∑ c : Fin 128, x0 (ix2 (j 0) c) * x1 (ix2 c (j 1))) + x2 (ix2 (0 : Fin 1) (j 1)) := by
  obtain ⟨p, q, rfl⟩ : ∃ (p : Fin 5000) (q : Fin 128), j = ix2 p q := ⟨j 0, j 1, eq_ix2 j⟩
  exact pay_dense x0 x1 x2 p q

theorem pay_scale1_at (x0 : Vec Ideal S5000x128 .f32) (x1 : Vec Ideal S128x128 .f32) (x2 : Vec Ideal S5000x1 .f32)
    (j : S5000x128.Idx) :
    k1_pay1 x0 x1 x2 j = (∑ c : Fin 128, x0 (ix2 (j 0) c) * x1 (ix2 c (j 1))) * x2 (ix2 (j 0) (0 : Fin 1)) := by
  obtain ⟨p, q, rfl⟩ : ∃ (p : Fin 5000) (q : Fin 128), j = ix2 p q := ⟨j 0, j 1, eq_ix2 j⟩
  exact pay_scale1 x0 x1 x2 p q

theorem pay_scale3_at (x0 : Vec Ideal S5000x128 .f32) (x1 : Vec Ideal S128x128 .f32) (x2 : Vec Ideal S5000x1 .f32)
    (j : S5000x128.Idx) :
    k3_pay1 x0 x1 x2 j = (∑ c : Fin 128, x0 (ix2 (j 0) c) * x1 (ix2 c (j 1))) * x2 (ix2 (j 0) (0 : Fin 1)) := by
  obtain ⟨p, q, rfl⟩ : ∃ (p : Fin 5000) (q : Fin 128), j = ix2 p q := ⟨j 0, j 1, eq_ix2 j⟩
  exact pay_scale3 x0 x1 x2 p q

theorem pay_scale5_at (x0 : Vec Ideal S5000x128 .f32) (x1 : Vec Ideal S128x128 .f32) (x2 : Vec Ideal S5000x1 .f32)
    (j : S5000x128.Idx) :
    k5_pay1 x0 x1 x2 j = (∑ c : Fin 128, x0 (ix2 (j 0) c) * x1 (ix2 c (j 1))) * x2 (ix2 (j 0) (0 : Fin 1)) := by
  obtain ⟨p, q, rfl⟩ : ∃ (p : Fin 5000) (q : Fin 128), j = ix2 p q := ⟨j 0, j 1, eq_ix2 j⟩
  exact pay_scale5 x0 x1 x2 p q

theorem pay_residual2_at (a : Vec Ideal S5000x128 .f32) (d : Vec Ideal S5000x1 .f32) (b : Vec Ideal S1x128 .f32)
    (h : Vec Ideal S5000x128 .f32) (j : S5000x128.Idx) :
    k2_pay1 a d b h j = h j + max (a j * d (ix2 (j 0) (0 : Fin 1)) + b (ix2 (0 : Fin 1) (j 1))) 0 := by
  obtain ⟨p, q, rfl⟩ : ∃ (p : Fin 5000) (q : Fin 128), j = ix2 p q := ⟨j 0, j 1, eq_ix2 j⟩
  exact pay_residual2 a d b h p q

theorem pay_residual4_at (a : Vec Ideal S5000x128 .f32) (d : Vec Ideal S5000x1 .f32) (b : Vec Ideal S1x128 .f32)
    (h : Vec Ideal S5000x128 .f32) (j : S5000x128.Idx) :
    k4_pay1 a d b h j = h j + max (a j * d (ix2 (j 0) (0 : Fin 1)) + b (ix2 (0 : Fin 1) (j 1))) 0 := by
  obtain ⟨p, q, rfl⟩ : ∃ (p : Fin 5000) (q : Fin 128), j = ix2 p q := ⟨j 0, j 1, eq_ix2 j⟩
  exact pay_residual4 a d b h p q

theorem pay_residual6_at (a : Vec Ideal S5000x128 .f32) (d : Vec Ideal S5000x1 .f32) (b : Vec Ideal S1x128 .f32)
    (h : Vec Ideal S5000x128 .f32) (j : S5000x128.Idx) :
    k6_pay1 a d b h j = h j + max (a j * d (ix2 (j 0) (0 : Fin 1)) + b (ix2 (0 : Fin 1) (j 1))) 0 := by
  obtain ⟨p, q, rfl⟩ : ∃ (p : Fin 5000) (q : Fin 128), j = ix2 p q := ⟨j 0, j 1, eq_ix2 j⟩
  exact pay_residual6 a d b h p q

end Cert.KernelIdeal.Payloads

end
-- ==== Proof.Blocks0.lean ====
/-
  Region 0 (an affine kernel with the rectifier), at arbitrary entry contents: the ten row blocks of 5000 rows tile the 50000 × 128 result,
  block t holding rows 5000·t … 5000·t + 4999, and each block is the rectified affine image of the same rows of the input under the weights and the bias — so the result array is the rectified affine image of the whole input.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 0's windows sit at point `t`: the row windows at block row `t`, the others whole. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point `t` is rows 5000·t … 5000·t + 4999 of its array. -/
theorem rd0_0 (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = (V c main_arg0 : S50000x128.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Window 1's block is its whole array at every point. -/
theorem rd0_1 (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- Window 2's block is its whole array at every point. -/
theorem rd0_2 (c : Dev nD) (t : Fin cfg0.N) (x : S1x128.Idx) (k : S1x128.Idx)
    (hk0 : (k 0).val = (x 0).val) (hk1 : (k 1).val = (x 1).val) :
    (iblk0 V c 2 t : Vec Ideal S1x128 .f32) x = (V c main_v15 : S1x128.Idx → EReal) k := by
  obtain ⟨-, -, -, -, e0, e1, -⟩ := idx0 t
  unfold iblk0
  rw [View.read_apply]
  show V c main_v15 _ = V c main_v15 _
  congr 1
  funext a
  apply Fin.ext
  match a with
  | ⟨0, _⟩ => show win0_2.index t 0 * 1 + 1 * (x 0).val = (k 0).val; rw [e0, hk0]; omega
  | ⟨1, _⟩ => show win0_2.index t 1 * 128 + 1 * (x 1).val = (k 1).val; rw [e1, hk1]; omega

/-- The region's result as one function of the arrays it finds. -/
abbrev G0 (c : Dev nD) : S50000x128.Idx → EReal :=
  arr (a := 50000) (b := 128) (denseRelu (mat (a := 50000) (b := 128) (V c main_arg0)) (mat (a := 128) (b := 128) (V c main_arg2)) (rowOf (b := 128) (V c main_v15)))

/-- What point `t` writes back is block `t` of that function. -/
theorem flushed0 (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e0, e1⟩ := idx0 t
  funext j
  have hi0 : ((((cfg0.win 3).blk t).view.emb j) 0).val = t.val * 5000 + (j 0).val := by
    show win0_3.index t 0 * 5000 + 1 * (j 0).val = _; rw [e0]; omega
  have hi1 : ((((cfg0.win 3).blk t).view.emb j) 1).val = (j 1).val := by
    show win0_3.index t 1 * 128 + 1 * (j 1).val = _; rw [e1]; omega
  refine (pay_denseRelu_at (iblk0 V c 0 t) (iblk0 V c 1 t) (iblk0 V c 2 t) j).trans ?_
  rw [View.read_apply]
  refine congrArg (fun z => max z (0 : EReal)) (congrArg₂ (· + ·) (Finset.sum_congr rfl fun c' _ => congrArg₂ (· * ·) ?_ ?_) ?_)
  · exact rd0_0 V c t _ _ hi0 rfl
  · exact rd0_1 V c t _ _ rfl hi1
  · exact rd0_2 V c t _ _ rfl hi1

/-- An index of the result is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The result array after the region: every row is in the block of its quotient by 5000. -/
theorem final0 (c : Dev nD) : (dat0 (F := Ideal) V c).arrAt 3 cfg0.N = G0 V c :=
  (dat0 V c).arrAt_eq_of_cover 3 (G0 V c) (fun t _ => flushed0 V c t) fun i => by
    have hi0 : (i 0).val < 50000 := (i 0).isLt
    have hi1 : (i 1).val < 128 := (i 1).isLt
    have hN : cfg0.N = 10 := N_0
    refine ⟨⟨(i 0).val / 5000, by rw [hN]; omega⟩, flush0_3 _, ?_⟩
    rw [mem_blk0]
    obtain ⟨-, -, -, -, -, -, e0, e1⟩ := idx0 ⟨(i 0).val / 5000, by rw [hN]; omega⟩
    intro a
    match a with
    | ⟨0, _⟩ => show win0_3.index _ 0 * 5000 ≤ (i 0).val ∧ (i 0).val < win0_3.index _ 0 * 5000 + 5000; rw [e0]; show (i 0).val / 5000 * 5000 ≤ _ ∧ _ < (i 0).val / 5000 * 5000 + 5000; omega
    | ⟨1, _⟩ => show win0_3.index _ 1 * 128 ≤ (i 1).val ∧ (i 1).val < win0_3.index _ 1 * 128 + 128; rw [e1]; omega

end Cert.KernelIdeal.Blocks

end
-- ==== Proof.Blocks1.lean ====
/-
  Region 1 (a scaling kernel), at arbitrary entry contents: the ten row blocks of 5000 rows tile the 50000 × 128 result,
  block t holding rows 5000·t … 5000·t + 4999, and each block is the product of the same rows of the features with the weights, each row scaled by its node's factor — so the result array is the scaled product of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 1's windows sit at point `t`: the row windows at block row `t`, the others whole. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- Window 0's block at point `t` is rows 5000·t … 5000·t + 4999 of its array. -/
theorem rd1_0 (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v16 : S50000x128.Idx → EReal) k := by
  obtain ⟨e0, e1, -⟩ := idx1 t
  unfold iblk1
  rw [View.read_apply]
  show V c main_v16 _ = V c main_v16 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Window 1's block is its whole array at every point. -/
theorem rd1_1 (c : Dev nD) (t : Fin cfg1.N) (x : S128x128.Idx) (k : S128x128.Idx)
    (hk0 : (k 0).val = (x 0).val) (hk1 : (k 1).val = (x 1).val) :
    (iblk1 V c 1 t : Vec Ideal S128x128 .f32) x = (V c main_arg4 : S128x128.Idx → EReal) k := by
  obtain ⟨-, -, e0, e1, -⟩ := idx1 t
  unfold iblk1
  rw [View.read_apply]
  show V c main_arg4 _ = V c main_arg4 _
  congr 1
  funext a
  apply Fin.ext
  match a with
  | ⟨0, _⟩ => show win1_1.index t 0 * 128 + 1 * (x 0).val = (k 0).val; rw [e0, hk0]; omega
  | ⟨1, _⟩ => show win1_1.index t 1 * 128 + 1 * (x 1).val = (k 1).val; rw [e1, hk1]; omega

/-- Window 2's block at point `t` is rows 5000·t … 5000·t + 4999 of its array. -/
theorem rd1_2 (c : Dev nD) (t : Fin cfg1.N) (x : S5000x1.Idx) (k : S50000x1.Idx)
    (hk0 : (k 0).val = t.val * 5000 + (x 0).val) (hk1 : (k 1).val = (x 1).val) :
    (iblk1 V c 2 t : Vec Ideal S5000x1 .f32) x = (V c main_v14 : S50000x1.Idx → EReal) k := by
  obtain ⟨-, -, -, -, e0, e1, -⟩ := idx1 t
  unfold iblk1
  rw [View.read_apply]
  show V c main_v14 _ = V c main_v14 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The region's result as one function of the arrays it finds. -/
abbrev G1 (c : Dev nD) : S50000x128.Idx → EReal :=
  arr (a := 50000) (b := 128) (scaled (colOf (a := 50000) (V c main_v14)) (mat (a := 50000) (b := 128) (V c main_v16)) (mat (a := 128) (b := 128) (V c main_arg4)))

/-- What point `t` writes back is block `t` of that function. -/
theorem flushed1 (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  obtain ⟨-, -, -, -, -, -, e0, e1⟩ := idx1 t
  funext j
  have hi0 : ((((cfg1.win 3).blk t).view.emb j) 0).val = t.val * 5000 + (j 0).val := by
    show win1_3.index t 0 * 5000 + 1 * (j 0).val = _; rw [e0]; omega
  have hi1 : ((((cfg1.win 3).blk t).view.emb j) 1).val = (j 1).val := by
    show win1_3.index t 1 * 128 + 1 * (j 1).val = _; rw [e1]; omega
  refine (pay_scale1_at (iblk1 V c 0 t) (iblk1 V c 1 t) (iblk1 V c 2 t) j).trans ?_
  rw [View.read_apply]
  refine congrArg₂ (· * ·) (Finset.sum_congr rfl fun c' _ => congrArg₂ (· * ·) ?_ ?_) ?_
  · exact rd1_0 V c t _ _ hi0 rfl
  · exact rd1_1 V c t _ _ rfl hi1
  · exact rd1_2 V c t _ _ hi0 rfl

/-- An index of the result is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v17).slice (win1_3.rect t)).set ↔ _
  rw [View.set_slice_whole, Rect.mem_set_unit]
  exact Iff.rfl

/-- The result array after the region: every row is in the block of its quotient by 5000. -/
theorem final1 (c : Dev nD) : (dat1 (F := Ideal) V c).arrAt 3 cfg1.N = G1 V c :=
  (dat1 V c).arrAt_eq_of_cover 3 (G1 V c) (fun t _ => flushed1 V c t) fun i => by
    have hi0 : (i 0).val < 50000 := (i 0).isLt
    have hi1 : (i 1).val < 128 := (i 1).isLt
    have hN : cfg1.N = 10 := N_1
    refine ⟨⟨(i 0).val / 5000, by rw [hN]; omega⟩, flush1_3 _, ?_⟩
    rw [mem_blk1]
    obtain ⟨-, -, -, -, -, -, e0, e1⟩ := idx1 ⟨(i 0).val / 5000, by rw [hN]; omega⟩
    intro a
    match a with
    | ⟨0, _⟩ => show win1_3.index _ 0 * 5000 ≤ (i 0).val ∧ (i 0).val < win1_3.index _ 0 * 5000 + 5000; rw [e0]; show (i 0).val / 5000 * 5000 ≤ _ ∧ _ < (i 0).val / 5000 * 5000 + 5000; omega
    | ⟨1, _⟩ => show win1_3.index _ 1 * 128 ≤ (i 1).val ∧ (i 1).val < win1_3.index _ 1 * 128 + 128; rw [e1]; omega

end Cert.KernelIdeal.Blocks

end
-- ==== Proof.Blocks2.lean ====
/-
  Region 2 (a residual kernel), at arbitrary entry contents: the ten row blocks of 5000 rows tile the 50000 × 128 result,
  block t holding rows 5000·t … 5000·t + 4999, and each block is the same rows of the features plus the rectified, scaled and biased rows of the aggregate — so the result array is the residual update of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 2's windows sit at point `t`: the row windows at block row `t`, the others whole. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Window 0's block at point `t` is rows 5000·t … 5000·t + 4999 of its array. -/
theorem rd2_0 (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v16 : S50000x128.Idx → EReal) k := by
  obtain ⟨e0, e1, -⟩ := idx2 t
  unfold iblk2
  rw [View.read_apply]
  show V c main_v16 _ = V c main_v16 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Window 1's block at point `t` is rows 5000·t … 5000·t + 4999 of its array. -/
theorem rd2_1 (c : Dev nD) (t : Fin cfg2.N) (x : S5000x128.Idx) (k : S50000x128.Idx)
    (hk0 : (k 0).val = t.val * 5000 + (x 0).val) (hk1 : (k 1).val = (x 1).val) :
    (iblk2 V c 1 t : Vec Ideal S5000x128 .f32) x = (V c main_v28 : S50000x128.Idx → EReal) k := by
  obtain ⟨-, -, e0, e1, -⟩ := idx2 t
  unfold iblk2
  rw [View.read_apply]
  show V c main_v28 _ = V c main_v28 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- Window 2's block at point `t` is rows 5000·t … 5000·t + 4999 of its array. -/
theorem rd2_2 (c : Dev nD) (t : Fin cfg2.N) (x : S5000x1.Idx) (k : S50000x1.Idx)
    (hk0 : (k 0).val = t.val * 5000 + (x 0).val) (hk1 : (k 1).val = (x 1).val) :
    (iblk2 V c 2 t : Vec Ideal S5000x1 .f32) x = (V c main_v14 : S50000x1.Idx → EReal) k := by
  obtain ⟨-, -, -, -, e0, e1, -⟩ := idx2 t
  unfold iblk2
  rw [View.read_apply]
  show V c main_v14 _ = V c main_v14 _
  congr 1
  funext a
  apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

/-- Window 3's block is its whole array at every point. -/
theorem rd2_3 (c : Dev nD) (t : Fin cfg2.N) (x : S1x128.Idx) (k : S1x128.Idx)
    (hk0 : (k 0).val = (x 0).val) (hk1 : (k 1).val = (x 1).val) :
    (iblk2 V c 3 t : Vec Ideal S1x128 .f32) x = (V c main_v29 : S1x128.Idx → EReal) k := by
  obtain ⟨-, -, -, -, -, -, e0, e1, -⟩ := idx2 t
  unfold iblk2
  rw [View.read_apply]
  show V c main_v29 _ = V c main_v29 _
  congr 1
  funext a
  apply Fin.ext
  match a with
  | ⟨0, _⟩ => show win2_3.index t 0 * 1 + 1 * (x 0).val = (k 0).val; rw [e0, hk0]; omega
  | ⟨1, _⟩ => show win2_3.index t 1 * 128 + 1 * (x 1).val = (k 1).val; rw [e1, hk1]; omega

/-- The region's result as one function of the arrays it finds. -/
abbrev G2 (c : Dev nD) : S50000x128.Idx → EReal :=
  arr (a := 50000) (b := 128) (combine (colOf (a := 50000) (V c main_v14)) (mat (a := 50000) (b := 128) (V c main_v16)) (mat (a := 50000) (b := 128) (V c main_v28)) (rowOf (b := 128) (V c main_v29)))

/-- What point `t` writes back is block `t` of that function. -/
theorem flushed2 (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx2 t
  funext j
  have hi0 : ((((cfg2.win 4).blk t).view.emb j) 0).val = t.val * 5000 + (j 0).val := by
    show win2_4.index t 0 * 5000 + 1 * (j 0).val = _; rw [e0]; omega
  have hi1 : ((((cfg2.win 4).blk t).view.emb j) 1).val = (j 1).val := by
    show win2_4.index t 1 * 128 + 1 * (j 1).val = _; rw [e1]; omega
  refine (pay_residual2_at (iblk2 V c 1 t) (iblk2 V c 2 t) (iblk2 V c 3 t) (iblk2 V c 0 t) j).trans ?_
  rw [View.read_apply]
  refine congrArg₂ (· + ·) ?_ (congrArg (fun z => max z (0 : EReal)) (congrArg₂ (· + ·) (congrArg₂ (· * ·) ?_ ?_) ?_))
  · exact rd2_0 V c t _ _ hi0 hi1
  · exact rd2_1 V c t _ _ hi0 hi1
  · exact rd2_2 V c t _ _ hi0 rfl
  · exact rd2_3 V c t _ _ rfl hi1

/-- An index of the result is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v30).slice (win2_4.rect t)).set ↔ _
  rw [View.set_slice_whole, Rect.mem_set_unit]
  exact Iff.rfl

/-- The result array after the region: every row is in the block of its quotient by 5000. -/
theorem final2 (c : Dev nD) : (dat2 (F := Ideal) V c).arrAt 4 cfg2.N = G2 V c :=
  (dat2 V c).arrAt_eq_of_cover 4 (G2 V c) (fun t _ => flushed2 V c t) fun i => by
    have hi0 : (i 0).val < 50000 := (i 0).isLt
    have hi1 : (i 1).val < 128 := (i 1).isLt
    have hN : cfg2.N = 10 := N_2
    refine ⟨⟨(i 0).val / 5000, by rw [hN]; omega⟩, flush2_4 _, ?_⟩
    rw [mem_blk2]
    obtain ⟨-, -, -, -, -, -, -, -, e0, e1⟩ := idx2 ⟨(i 0).val / 5000, by rw [hN]; omega⟩
    intro a
    match a with
    | ⟨0, _⟩ => show win2_4.index _ 0 * 5000 ≤ (i 0).val ∧ (i 0).val < win2_4.index _ 0 * 5000 + 5000; rw [e0]; show (i 0).val / 5000 * 5000 ≤ _ ∧ _ < (i 0).val / 5000 * 5000 + 5000; omega
    | ⟨1, _⟩ => show win2_4.index _ 1 * 128 ≤ (i 1).val ∧ (i 1).val < win2_4.index _ 1 * 128 + 128; rw [e1]; omega

end Cert.KernelIdeal.Blocks

end
-- ==== Proof.Blocks3.lean ====
/-
  Region 3 (a scaling kernel), at arbitrary entry contents: the ten row blocks of 5000 rows tile the 50000 × 128 result,
  block t holding rows 5000·t … 5000·t + 4999, and each block is the product of the same rows of the features with the weights, each row scaled by its node's factor — so the result array is the scaled product of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 3's windows sit at point `t`: the row windows at block row `t`, the others whole. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- Window 0's block at point `t` is rows 5000·t … 5000·t + 4999 of its array. -/
theorem rd3_0 (c : Dev nD) (t : Fin cfg3.N) (x : S5000x128.Idx) (k : S50000x128.Idx)
    (hk0 : (k 0).val = t.val * 5000 + (x 0).val) (hk1 : (k 1).val = (x 1).val) :
    (iblk3 V c 0 t : Vec Ideal S5000x128 .f32) x = (V c main_v30 : S50000x128.Idx → EReal) k := by
  obtain ⟨e0, e1, -⟩ := idx3 t
  unfold iblk3
  rw [View.read_apply]
  show V c main_v30 _ = V c main_v30 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Window 1's block is its whole array at every point. -/
theorem rd3_1 (c : Dev nD) (t : Fin cfg3.N) (x : S128x128.Idx) (k : S128x128.Idx)
    (hk0 : (k 0).val = (x 0).val) (hk1 : (k 1).val = (x 1).val) :
    (iblk3 V c 1 t : Vec Ideal S128x128 .f32) x = (V c main_arg6 : S128x128.Idx → EReal) k := by
  obtain ⟨-, -, e0, e1, -⟩ := idx3 t
  unfold iblk3
  rw [View.read_apply]
  show V c main_arg6 _ = V c main_arg6 _
  congr 1
  funext a
  apply Fin.ext
  match a with
  | ⟨0, _⟩ => show win3_1.index t 0 * 128 + 1 * (x 0).val = (k 0).val; rw [e0, hk0]; omega
  | ⟨1, _⟩ => show win3_1.index t 1 * 128 + 1 * (x 1).val = (k 1).val; rw [e1, hk1]; omega

/-- Window 2's block at point `t` is rows 5000·t … 5000·t + 4999 of its array. -/
theorem rd3_2 (c : Dev nD) (t : Fin cfg3.N) (x : S5000x1.Idx) (k : S50000x1.Idx)
    (hk0 : (k 0).val = t.val * 5000 + (x 0).val) (hk1 : (k 1).val = (x 1).val) :
    (iblk3 V c 2 t : Vec Ideal S5000x1 .f32) x = (V c main_v14 : S50000x1.Idx → EReal) k := by
  obtain ⟨-, -, -, -, e0, e1, -⟩ := idx3 t
  unfold iblk3
  rw [View.read_apply]
  show V c main_v14 _ = V c main_v14 _
  congr 1
  funext a
  apply Fin.ext
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

/-- The region's result as one function of the arrays it finds. -/
abbrev G3 (c : Dev nD) : S50000x128.Idx → EReal :=
  arr (a := 50000) (b := 128) (scaled (colOf (a := 50000) (V c main_v14)) (mat (a := 50000) (b := 128) (V c main_v30)) (mat (a := 128) (b := 128) (V c main_arg6)))

/-- What point `t` writes back is block `t` of that function. -/
theorem flushed3 (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S5000x1) hz]
  obtain ⟨-, -, -, -, -, -, e0, e1⟩ := idx3 t
  funext j
  have hi0 : ((((cfg3.win 3).blk t).view.emb j) 0).val = t.val * 5000 + (j 0).val := by
    show win3_3.index t 0 * 5000 + 1 * (j 0).val = _; rw [e0]; omega
  have hi1 : ((((cfg3.win 3).blk t).view.emb j) 1).val = (j 1).val := by
    show win3_3.index t 1 * 128 + 1 * (j 1).val = _; rw [e1]; omega
  refine (pay_scale3_at (iblk3 V c 0 t) (iblk3 V c 1 t) (iblk3 V c 2 t) j).trans ?_
  rw [View.read_apply]
  refine congrArg₂ (· * ·) (Finset.sum_congr rfl fun c' _ => congrArg₂ (· * ·) ?_ ?_) ?_
  · exact rd3_0 V c t _ _ hi0 rfl
  · exact rd3_1 V c t _ _ rfl hi1
  · exact rd3_2 V c t _ _ hi0 rfl

/-- An index of the result is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v31).slice (win3_3.rect t)).set ↔ _
  rw [View.set_slice_whole, Rect.mem_set_unit]
  exact Iff.rfl

/-- The result array after the region: every row is in the block of its quotient by 5000. -/
theorem final3 (c : Dev nD) : (dat3 (F := Ideal) V c).arrAt 3 cfg3.N = G3 V c :=
  (dat3 V c).arrAt_eq_of_cover 3 (G3 V c) (fun t _ => flushed3 V c t) fun i => by
    have hi0 : (i 0).val < 50000 := (i 0).isLt
    have hi1 : (i 1).val < 128 := (i 1).isLt
    have hN : cfg3.N = 10 := N_3
    refine ⟨⟨(i 0).val / 5000, by rw [hN]; omega⟩, flush3_3 _, ?_⟩
    rw [mem_blk3]
    obtain ⟨-, -, -, -, -, -, e0, e1⟩ := idx3 ⟨(i 0).val / 5000, by rw [hN]; omega⟩
    intro a
    match a with
    | ⟨0, _⟩ => show win3_3.index _ 0 * 5000 ≤ (i 0).val ∧ (i 0).val < win3_3.index _ 0 * 5000 + 5000; rw [e0]; show (i 0).val / 5000 * 5000 ≤ _ ∧ _ < (i 0).val / 5000 * 5000 + 5000; omega
    | ⟨1, _⟩ => show win3_3.index _ 1 * 128 ≤ (i 1).val ∧ (i 1).val < win3_3.index _ 1 * 128 + 128; rw [e1]; omega

end Cert.KernelIdeal.Blocks

end
-- ==== Proof.Blocks4.lean ====
/-
  Region 4 (a residual kernel), at arbitrary entry contents: the ten row blocks of 5000 rows tile the 50000 × 128 result,
  block t holding rows 5000·t … 5000·t + 4999, and each block is the same rows of the features plus the rectified, scaled and biased rows of the aggregate — so the result array is the residual update of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 4's windows sit at point `t`: the row windows at block row `t`, the others whole. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- Window 0's block at point `t` is rows 5000·t … 5000·t + 4999 of its array. -/
theorem rd4_0 (c : Dev nD) (t : Fin cfg4.N) (x : S5000x128.Idx) (k : S50000x128.Idx)
    (hk0 : (k 0).val = t.val * 5000 + (x 0).val) (hk1 : (k 1).val = (x 1).val) :
    (iblk4 V c 0 t : Vec Ideal S5000x128 .f32) x = (V c main_v30 : S50000x128.Idx → EReal) k := by
  obtain ⟨e0, e1, -⟩ := idx4 t
  unfold iblk4
  rw [View.read_apply]
  show V c main_v30 _ = V c main_v30 _
  congr 1
  funext a
  apply Fin.ext
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- Window 1's block at point `t` is rows 5000·t … 5000·t + 4999 of its array. -/
theorem rd4_1 (c : Dev nD) (t : Fin cfg4.N) (x : S5000x128.Idx) (k : S50000x128.Idx)
    (hk0 : (k 0).val = t.val * 5000 + (x 0).val) (hk1 : (k 1).val = (x 1).val) :
    (iblk4 V c 1 t : Vec Ideal S5000x128 .f32) x = (V c main_v42 : S50000x128.Idx → EReal) k := by
  obtain ⟨-, -, e0, e1, -⟩ := idx4 t
  unfold iblk4
  rw [View.read_apply]
  show V c main_v42 _ = V c main_v42 _
  congr 1
  funext a
  apply Fin.ext
  match a with
  | ⟨0, _⟩ => show win4_1.index t 0 * 5000 + 1 * (x 0).val = (k 0).val; rw [e0, hk0]; omega
  | ⟨1, _⟩ => show win4_1.index t 1 * 128 + 1 * (x 1).val = (k 1).val; rw [e1, hk1]; omega

/-- Window 2's block at point `t` is rows 5000·t … 5000·t + 4999 of its array. -/
theorem rd4_2 (c : Dev nD) (t : Fin cfg4.N) (x : S5000x1.Idx) (k : S50000x1.Idx)
    (hk0 : (k 0).val = t.val * 5000 + (x 0).val) (hk1 : (k 1).val = (x 1).val) :
    (iblk4 V c 2 t : Vec Ideal S5000x1 .f32) x = (V c main_v14 : S50000x1.Idx → EReal) k := by
  obtain ⟨-, -, -, -, e0, e1, -⟩ := idx4 t
  unfold iblk4
  rw [View.read_apply]
  show V c main_v14 _ = V c main_v14 _
  congr 1
  funext a
  apply Fin.ext
  match a with
  | ⟨0, _⟩ => show win4_2.index t 0 * 5000 + 1 * (x 0).val = (k 0).val; rw [e0, hk0]; omega
  | ⟨1, _⟩ => show win4_2.index t 1 * 1 + 1 * (x 1).val = (k 1).val; rw [e1, hk1]; omega

/-- Window 3's block is its whole array at every point. -/
theorem rd4_3 (c : Dev nD) (t : Fin cfg4.N) (x : S1x128.Idx) (k : S1x128.Idx)
    (hk0 : (k 0).val = (x 0).val) (hk1 : (k 1).val = (x 1).val) :
    (iblk4 V c 3 t : Vec Ideal S1x128 .f32) x = (V c main_v43 : S1x128.Idx → EReal) k := by
  obtain ⟨-, -, -, -, -, -, e0, e1, -⟩ := idx4 t
  unfold iblk4
  rw [View.read_apply]
  show V c main_v43 _ = V c main_v43 _
  congr 1
  funext a
  apply Fin.ext
  match a with
  | ⟨0, _⟩ => show win4_3.index t 0 * 1 + 1 * (x 0).val = (k 0).val; rw [e0, hk0]; omega
  | ⟨1, _⟩ => show win4_3.index t 1 * 128 + 1 * (x 1).val = (k 1).val; rw [e1, hk1]; omega

/-- The region's result as one function of the arrays it finds. -/
abbrev G4 (c : Dev nD) : S50000x128.Idx → EReal :=
  arr (a := 50000) (b := 128) (combine (colOf (a := 50000) (V c main_v14)) (mat (a := 50000) (b := 128) (V c main_v30)) (mat (a := 50000) (b := 128) (V c main_v42)) (rowOf (b := 128) (V c main_v43)))

/-- What point `t` writes back is block `t` of that function. -/
theorem flushed4 (c : Dev nD) (t : Fin cfg4.N) :
    (dat4 (F := Ideal) V c).flushed 4 t = ((cfg4.win 4).blk t).view.read (Elt Ideal) (G4 V c) := by
  show (cfg4.win 4).cut (grid4.coords t) ((dat4 V c).after 4 t) = _
  rw [after4_4]
  unfold out4_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx4 t
  funext j
  have hi0 : ((((cfg4.win 4).blk t).view.emb j) 0).val = t.val * 5000 + (j 0).val := by
    show win4_4.index t 0 * 5000 + 1 * (j 0).val = _; rw [e0]; omega
  have hi1 : ((((cfg4.win 4).blk t).view.emb j) 1).val = (j 1).val := by
    show win4_4.index t 1 * 128 + 1 * (j 1).val = _; rw [e1]; omega
  refine (pay_residual4_at (iblk4 V c 1 t) (iblk4 V c 2 t) (iblk4 V c 3 t) (iblk4 V c 0 t) j).trans ?_
  rw [View.read_apply]
  refine congrArg₂ (· + ·) ?_ (congrArg (fun z => max z (0 : EReal)) (congrArg₂ (· + ·) (congrArg₂ (· * ·) ?_ ?_) ?_))
  · exact rd4_0 V c t _ _ hi0 hi1
  · exact rd4_1 V c t _ _ hi0 hi1
  · exact rd4_2 V c t _ _ hi0 rfl
  · exact rd4_3 V c t _ _ rfl hi1

/-- An index of the result is in point `t`'s block iff each coordinate is in the block's range on its axis. -/
theorem mem_blk4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v44).slice (win4_4.rect t)).set ↔ _
  rw [View.set_slice_whole, Rect.mem_set_unit]
  exact Iff.rfl

/-- The result array after the region: every row is in the block of its quotient by 5000. -/
theorem final4 (c : Dev nD) : (dat4 (F := Ideal) V c).arrAt 4 cfg4.N = G4 V c :=
  (dat4 V c).arrAt_eq_of_cover 4 (G4 V c) (fun t _ => flushed4 V c t) fun i => by
    have hi0 : (i 0).val < 50000 := (i 0).isLt
    have hi1 : (i 1).val < 128 := (i 1).isLt
    have hN : cfg4.N = 10 := N_4
    refine ⟨⟨(i 0).val / 5000, by rw [hN]; omega⟩, flush4_4 _, ?_⟩
    rw [mem_blk4]
    obtain ⟨-, -, -, -, -, -, -, -, e0, e1⟩ := idx4 ⟨(i 0).val / 5000, by rw [hN]; omega⟩
    intro a
    match a with
    | ⟨0, _⟩ => show win4_4.index _ 0 * 5000 ≤ (i 0).val ∧ (i 0).val < win4_4.index _ 0 * 5000 + 5000; rw [e0]; show (i 0).val / 5000 * 5000 ≤ _ ∧ _ < (i 0).val / 5000 * 5000 + 5000; omega
    | ⟨1, _⟩ => show win4_4.index _ 1 * 128 ≤ (i 1).val ∧ (i 1).val < win4_4.index _ 1 * 128 + 128; rw [e1]; omega

end Cert.KernelIdeal.Blocks

end
-- ==== Proof.Blocks5.lean ====
/-
  Region 5 (a scaling kernel), at arbitrary entry contents: the ten row blocks of 5000 rows tile the 50000 × 128 result,
  block t holding rows 5000·t … 5000·t + 4999, and each block is the product of the same rows of the features with the weights, each row scaled by its node's factor — so the result array is the scaled product of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 5's windows sit at point `t`: the row windows at block row `t`, the others whole. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0 :=
  (by decide +kernel : ∀ t : Fin grid5.N, _)

/-- Window 0's block at point `t` is rows 5000·t … 5000·t + 4999 of its array. -/
theorem rd5_0 (c : Dev nD) (t : Fin cfg5.N) (x : S5000x128.Idx) (k : S50000x128.Idx)
    (hk0 : (k 0).val = t.val * 5000 + (x 0).val) (hk1 : (k 1).val = (x 1).val) :
    (iblk5 V c 0 t : Vec Ideal S5000x128 .f32) x = (V c main_v44 : S50000x128.Idx → EReal) k := by
  obtain ⟨e0, e1, -⟩ := idx5 t
  unfold iblk5
  rw [View.read_apply]
  show V c main_v44 _ = V c main_v44 _
  congr 1
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

/-- Window 1's block is its whole array at every point. -/
theorem rd5_1 (c : Dev nD) (t : Fin cfg5.N) (x : S128x128.Idx) (k : S128x128.Idx)
    (hk0 : (k 0).val = (x 0).val) (hk1 : (k 1).val = (x 1).val) :
    (iblk5 V c 1 t : Vec Ideal S128x128 .f32) x = (V c main_arg8 : S128x128.Idx → EReal) k := by
  obtain ⟨-, -, e0, e1, -⟩ := idx5 t
  unfold iblk5
  rw [View.read_apply]
  show V c main_arg8 _ = V c main_arg8 _
  congr 1
  funext a
  apply Fin.ext
  match a with
  | ⟨0, _⟩ => show win5_1.index t 0 * 128 + 1 * (x 0).val = (k 0).val; rw [e0, hk0]; omega
  | ⟨1, _⟩ => show win5_1.index t 1 * 128 + 1 * (x 1).val = (k 1).val; rw [e1, hk1]; omega

/-- Window 2's block at point `t` is rows 5000·t … 5000·t + 4999 of its array. -/
theorem rd5_2 (c : Dev nD) (t : Fin cfg5.N) (x : S5000x1.Idx) (k : S50000x1.Idx)
    (hk0 : (k 0).val = t.val * 5000 + (x 0).val) (hk1 : (k 1).val = (x 1).val) :
    (iblk5 V c 2 t : Vec Ideal S5000x1 .f32) x = (V c main_v14 : S50000x1.Idx → EReal) k := by
  obtain ⟨-, -, -, -, e0, e1, -⟩ := idx5 t
  unfold iblk5
  rw [View.read_apply]
  show V c main_v14 _ = V c main_v14 _
  congr 1
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

/-- The region's result as one function of the arrays it finds. -/
abbrev G5 (c : Dev nD) : S50000x128.Idx → EReal :=
  arr (a := 50000) (b := 128) (scaled (colOf (a := 50000) (V c main_v14)) (mat (a := 50000) (b := 128) (V c main_v44)) (mat (a := 128) (b := 128) (V c main_arg8)))

/-- What point `t` writes back is block `t` of that function. -/
theorem flushed5 (c : Dev nD) (t : Fin cfg5.N) :
    (dat5 (F := Ideal) V c).flushed 3 t = ((cfg5.win 3).blk t).view.read (Elt Ideal) (G5 V c) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S5000x1) hz]
  obtain ⟨-, -, -, -, -, -, e0, e1⟩ := idx5 t
  funext j
  have hi0 : ((((cfg5.win 3).blk t).view.emb j) 0).val = t.val * 5000 + (j 0).val := by
    show win5_3.index t 0 * 5000 + 1 * (j 0).val = _; rw [e0]; omega
  have hi1 : ((((cfg5.win 3).blk t).view.emb j) 1).val = (j 1).val := by
    show win5_3.index t 1 * 128 + 1 * (j 1).val = _; rw [e1]; omega
  refine (pay_scale5_at (iblk5 V c 0 t) (iblk5 V c 1 t) (iblk5 V c 2 t) j).trans ?_
  rw [View.read_apply]
  refine congrArg₂ (· * ·) (Finset.sum_congr rfl fun c' _ => congrArg₂ (· * ·) ?_ ?_) ?_
  · exact rd5_0 V c t _ _ hi0 rfl
  · exact rd5_1 V c t _ _ rfl hi1
  · exact rd5_2 V c t _ _ hi0 rfl

/-- An index of the result is in point `t`'s block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v45).slice (win5_3.rect t)).set ↔ _
  rw [View.set_slice_whole, Rect.mem_set_unit]
  exact Iff.rfl

/-- The result array after the region: every row is in the block of its quotient by 5000. -/
theorem final5 (c : Dev nD) : (dat5 (F := Ideal) V c).arrAt 3 cfg5.N = G5 V c :=
  (dat5 V c).arrAt_eq_of_cover 3 (G5 V c) (fun t _ => flushed5 V c t) fun i => by
    have hi0 : (i 0).val < 50000 := (i 0).isLt
    have hi1 : (i 1).val < 128 := (i 1).isLt
    have hN : cfg5.N = 10 := N_5
    refine ⟨⟨(i 0).val / 5000, by rw [hN]; omega⟩, flush5_3 _, ?_⟩
    rw [mem_blk5]
    obtain ⟨-, -, -, -, -, -, e0, e1⟩ := idx5 ⟨(i 0).val / 5000, by rw [hN]; omega⟩
    intro a
    match a with
    | ⟨0, _⟩ => show win5_3.index _ 0 * 5000 ≤ (i 0).val ∧ (i 0).val < win5_3.index _ 0 * 5000 + 5000; rw [e0]; show (i 0).val / 5000 * 5000 ≤ _ ∧ _ < (i 0).val / 5000 * 5000 + 5000; omega
    | ⟨1, _⟩ => show win5_3.index _ 1 * 128 ≤ (i 1).val ∧ (i 1).val < win5_3.index _ 1 * 128 + 128; rw [e1]; omega

end Cert.KernelIdeal.Blocks

end
-- ==== Proof.Blocks6.lean ====
/-
  Region 6 (a residual kernel), at arbitrary entry contents: the ten row blocks of 5000 rows tile the 50000 × 128 result,
  block t holding rows 5000·t … 5000·t + 4999, and each block is the same rows of the features plus the rectified, scaled and biased rows of the aggregate — so the result array is the residual update of the whole arrays.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 6's windows sit at point `t`: the row windows at block row `t`, the others whole. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

/-- Window 0's block at point `t` is rows 5000·t … 5000·t + 4999 of its array. -/
theorem rd6_0 (c : Dev nD) (t : Fin cfg6.N) (x : S5000x128.Idx) (k : S50000x128.Idx)
    (hk0 : (k 0).val = t.val * 5000 + (x 0).val) (hk1 : (k 1).val = (x 1).val) :
    (iblk6 V c 0 t : Vec Ideal S5000x128 .f32) x = (V c main_v44 : S50000x128.Idx → EReal) k := by
  obtain ⟨e0, e1, -⟩ := idx6 t
  unfold iblk6
  rw [View.read_apply]
  show V c main_v44 _ = V c main_v44 _
  congr 1
  funext a
  apply Fin.ext
  match a with
  | ⟨0, _⟩ => show win6_0.index t 0 * 5000 + 1 * (x 0).val = (k 0).val; rw [e0, hk0]; omega
  | ⟨1, _⟩ => show win6_0.index t 1 * 128 + 1 * (x 1).val = (k 1).val; rw [e1, hk1]; omega

/-- Window 1's block at point `t` is rows 5000·t … 5000·t + 4999 of its array. -/
theorem rd6_1 (c : Dev nD) (t : Fin cfg6.N) (x : S5000x128.Idx) (k : S50000x128.Idx)
    (hk0 : (k 0).val = t.val * 5000 + (x 0).val) (hk1 : (k 1).val = (x 1).val) :
    (iblk6 V c 1 t : Vec Ideal S5000x128 .f32) x = (V c main_v56 : S50000x128.Idx → EReal) k := by
  obtain ⟨-, -, e0, e1, -⟩ := idx6 t
  unfold iblk6
  rw [View.read_apply]
  show V c main_v56 _ = V c main_v56 _
  congr 1
  funext a
  apply Fin.ext
  match a with
  | ⟨0, _⟩ => show win6_1.index t 0 * 5000 + 1 * (x 0).val = (k 0).val; rw [e0, hk0]; omega
  | ⟨1, _⟩ => show win6_1.index t 1 * 128 + 1 * (x 1).val = (k 1).val; rw [e1, hk1]; omega

/-- Window 2's block at point `t` is rows 5000·t … 5000·t + 4999 of its array. -/
theorem rd6_2 (c : Dev nD) (t : Fin cfg6.N) (x : S5000x1.Idx) (k : S50000x1.Idx)
    (hk0 : (k 0).val = t.val * 5000 + (x 0).val) (hk1 : (k 1).val = (x 1).val) :
    (iblk6 V c 2 t : Vec Ideal S5000x1 .f32) x = (V c main_v14 : S50000x1.Idx → EReal) k := by
  obtain ⟨-, -, -, -, e0, e1, -⟩ := idx6 t
  unfold iblk6
  rw [View.read_apply]
  show V c main_v14 _ = V c main_v14 _
  congr 1
  funext a
  apply Fin.ext
  match a with
  | ⟨0, _⟩ => show win6_2.index t 0 * 5000 + 1 * (x 0).val = (k 0).val; rw [e0, hk0]; omega
  | ⟨1, _⟩ => show win6_2.index t 1 * 1 + 1 * (x 1).val = (k 1).val; rw [e1, hk1]; omega

/-- Window 3's block is its whole array at every point. -/
theorem rd6_3 (c : Dev nD) (t : Fin cfg6.N) (x : S1x128.Idx) (k : S1x128.Idx)
    (hk0 : (k 0).val = (x 0).val) (hk1 : (k 1).val = (x 1).val) :
    (iblk6 V c 3 t : Vec Ideal S1x128 .f32) x = (V c main_v57 : S1x128.Idx → EReal) k := by
  obtain ⟨-, -, -, -, -, -, e0, e1, -⟩ := idx6 t
  unfold iblk6
  rw [View.read_apply]
  show V c main_v57 _ = V c main_v57 _
  congr 1
  funext a
  apply Fin.ext
  match a with
  | ⟨0, _⟩ => show win6_3.index t 0 * 1 + 1 * (x 0).val = (k 0).val; rw [e0, hk0]; omega
  | ⟨1, _⟩ => show win6_3.index t 1 * 128 + 1 * (x 1).val = (k 1).val; rw [e1, hk1]; omega

/-- The region's result as one function of the arrays it finds. -/
abbrev G6 (c : Dev nD) : S50000x128.Idx → EReal :=
  arr (a := 50000) (b := 128) (combine (colOf (a := 50000) (V c main_v14)) (mat (a := 50000) (b := 128) (V c main_v44)) (mat (a := 50000) (b := 128) (V c main_v56)) (rowOf (b := 128) (V c main_v57)))

/-- What point `t` writes back is block `t` of that function. -/
theorem flushed6 (c : Dev nD) (t : Fin cfg6.N) :
    (dat6 (F := Ideal) V c).flushed 4 t = ((cfg6.win 4).blk t).view.read (Elt Ideal) (G6 V c) := by
  show (cfg6.win 4).cut (grid6.coords t) ((dat6 V c).after 4 t) = _
  rw [after6_4]
  unfold out6_4
  rw [View.canon_unit_zero hz]
  simp only [View.ld_unit_zero (S := S5000x128) hz, View.ld_unit_zero (S := S5000x1) hz, View.ld_unit_zero (S := S1x128) hz]
  obtain ⟨-, -, -, -, -, -, -, -, e0, e1⟩ := idx6 t
  funext j
  have hi0 : ((((cfg6.win 4).blk t).view.emb j) 0).val = t.val * 5000 + (j 0).val := by
    show win6_4.index t 0 * 5000 + 1 * (j 0).val = _; rw [e0]; omega
  have hi1 : ((((cfg6.win 4).blk t).view.emb j) 1).val = (j 1).val := by
    show win6_4.index t 1 * 128 + 1 * (j 1).val = _; rw [e1]; omega
  refine (pay_residual6_at (iblk6 V c 1 t) (iblk6 V c 2 t) (iblk6 V c 3 t) (iblk6 V c 0 t) j).trans ?_
  rw [View.read_apply]
  refine congrArg₂ (· + ·) ?_ (congrArg (fun z => max z (0 : EReal)) (congrArg₂ (· + ·) (congrArg₂ (· * ·) ?_ ?_) ?_))
  · exact rd6_0 V c t _ _ hi0 hi1
  · exact rd6_1 V c t _ _ hi0 hi1
  · exact rd6_2 V c t _ _ hi0 rfl
  · exact rd6_3 V c t _ _ rfl hi1

/-- An index of the result is in point `t`'s block iff each coordinate is in the block's range on its axis. -/
theorem mem_blk6 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v58).slice (win6_4.rect t)).set ↔ _
  rw [View.set_slice_whole, Rect.mem_set_unit]
  exact Iff.rfl

/-- The result array after the region: every row is in the block of its quotient by 5000. -/
theorem final6 (c : Dev nD) : (dat6 (F := Ideal) V c).arrAt 4 cfg6.N = G6 V c :=
  (dat6 V c).arrAt_eq_of_cover 4 (G6 V c) (fun t _ => flushed6 V c t) fun i => by
    have hi0 : (i 0).val < 50000 := (i 0).isLt
    have hi1 : (i 1).val < 128 := (i 1).isLt
    have hN : cfg6.N = 10 := N_6
    refine ⟨⟨(i 0).val / 5000, by rw [hN]; omega⟩, flush6_4 _, ?_⟩
    rw [mem_blk6]
    obtain ⟨-, -, -, -, -, -, -, -, e0, e1⟩ := idx6 ⟨(i 0).val / 5000, by rw [hN]; omega⟩
    intro a
    match a with
    | ⟨0, _⟩ => show win6_4.index _ 0 * 5000 ≤ (i 0).val ∧ (i 0).val < win6_4.index _ 0 * 5000 + 5000; rw [e0]; show (i 0).val / 5000 * 5000 ≤ _ ∧ _ < (i 0).val / 5000 * 5000 + 5000; omega
    | ⟨1, _⟩ => show win6_4.index _ 1 * 128 ≤ (i 1).val ∧ (i 1).val < win6_4.index _ 1 * 128 + 128; rw [e1]; omega

end Cert.KernelIdeal.Blocks

end
-- ==== Proof.Blocks7.lean ====
/-
  Region 7 (an affine kernel), at arbitrary entry contents: the ten row blocks of 5000 rows tile the 50000 × 128 result,
  block t holding rows 5000·t … 5000·t + 4999, and each block is the affine image of the same rows of the input under the weights and the bias — so the result array is the affine image of the whole input.
-/
import proofs.«139155_j37082747634276_2_alg».proof.Proof.Gen.KernelIdeal.Frame
import proofs.«139155_j37082747634276_2_alg».proof.Proof.Payloads
import proofs.«139155_j37082747634276_2_alg».proof.Proof.Layers
import proofs.«139155_j37082747634276_2_alg».proof.Proof.Views
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payloads Cert.Views Cert.GraphLayers

variable (V : (c : Dev nD) → (b : Ref sig .tc) → Buf (Elt Ideal) ((c : Thread nD τ).loc b))

/-- Where region 7's windows sit at point `t`: the row windows at block row `t`, the others whole. -/
theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Window 0's block at point `t` is rows 5000·t … 5000·t + 4999 of its array. -/
theorem rd7_0 (c : Dev nD) (t : Fin cfg7.N) (x : S5000x128.Idx) (k : S50000x128.Idx)
    (hk0 : (k 0).val = t.val * 5000 + (x 0).val) (hk1 : (k 1).val = (x 1).val) :
    (iblk7 V c 0 t : Vec Ideal S5000x128 .f32) x = (V c main_v58 : S50000x128.Idx → EReal) k := by
  obtain ⟨e0, e1, -⟩ := idx7 t
  unfold iblk7
  rw [View.read_apply]
  show V c main_v58 _ = V c main_v58 _
  congr 1
  funext a
  apply Fin.ext
  match a with
  | ⟨0, _⟩ => show win7_0.index t 0 * 5000 + 1 * (x 0).val = (k 0).val; rw [e0, hk0]; omega
  | ⟨1, _⟩ => show win7_0.index t 1 * 128 + 1 * (x 1).val = (k 1).val; rw [e1, hk1]; omega

/-- Window 1's block is its whole array at every point. -/
theorem rd7_1 (c : Dev nD) (t : Fin cfg7.N) (x : S128x128.Idx) (k : S128x128.Idx)
    (hk0 : (k 0).val = (x 0).val) (hk1 : (k 1).val = (x 1).val) :
    (iblk7 V c 1 t : Vec Ideal S128x128 .f32) x = (V c main_arg10 : S128x128.Idx → EReal) k := by
  obtain ⟨-, -, e0, e1, -⟩ := idx7 t
  unfold iblk7
  rw [View.read_apply]
  show V c main_arg10 _ = V c main_arg10 _
  congr 1
  funext a
  apply Fin.ext
  match a with
  | ⟨0, _⟩ => show win7_1.index t 0 * 128 + 1 * (x 0).val = (k 0).val; rw [e0, hk0]; omega
  | ⟨1, _⟩ => show win7_1.index t 1 * 128 + 1 * (x 1).val = (k 1).val; rw [e1, hk1]; omega

/-- Window 2's block is its whole array at every point. -/
theorem rd7_2 (c : Dev nD) (t : Fin cfg7.N) (x : S1x128.Idx) (k : S1x128.Idx)
    (hk0 : (k 0).val = (x 0).val) (hk1 : (k 1).val = (x 1).val) :
    (iblk7 V c 2 t : Vec Ideal S1x128 .f32) x = (V c main_v59 : S1x128.Idx → EReal) k := by
  obtain ⟨-, -, -, -, e0, e1, -⟩ := idx7 t
  unfold iblk7
  rw [View.read_apply]
  show V c main_v59 _ = V c main_v59 _
  congr 1
  funext a
  apply Fin.ext
  match a with
  | ⟨0, _⟩ => show win7_2.index t 0 * 1 + 1 * (x 0).val = (k 0).val; rw [e0, hk0]; omega
  | ⟨1, _⟩ => show win7_2.index t 1 * 128 + 1 * (x 1).val = (k 1).val; rw [e1, hk1]; omega

/-- The region's result as one function of the arrays it finds. -/
abbrev G7 (c : Dev nD) : S50000x128.Idx → EReal :=
  arr (a := 50000) (b := 128) (dense (mat (a := 50000) (b := 128) (V c main_v58)) (mat (a := 128) (b := 128) (V c main_arg10)) (rowOf (b := 128) (V c main_v59)))

/-- What point `t` writes back is block `t` of that function. -/
theorem flushed7 (c : Dev nD) (t : Fin cfg7.N) :
    (dat7 (F := Ideal) V c).flushed 3 t = ((cfg7.win 3).blk t).view.read (Elt Ideal) (G7 V c) := by
  show (cfg7.win 3).cut (grid7.coords t) ((dat7 V c).after 3 t) = _
  rw [after7_3]
  unfold out7_3
  rw [View.canon_unit_zero hz]
  simp only [View.ld_unit_zero (S := S5000x128) hz, View.ld_unit_zero (S := S128x128) hz, View.ld_unit_zero (S := S1x128) hz]
  obtain ⟨-, -, -, -, -, -, e0, e1⟩ := idx7 t
  funext j
  have hi0 : ((((cfg7.win 3).blk t).view.emb j) 0).val = t.val * 5000 + (j 0).val := by
    show win7_3.index t 0 * 5000 + 1 * (j 0).val = _; rw [e0]; omega
  have hi1 : ((((cfg7.win 3).blk t).view.emb j) 1).val = (j 1).val := by
    show win7_3.index t 1 * 128 + 1 * (j 1).val = _; rw [e1]; omega
  refine (pay_dense_at (iblk7 V c 0 t) (iblk7 V c 1 t) (iblk7 V c 2 t) j).trans ?_
  rw [View.read_apply]
  refine congrArg₂ (· + ·) (Finset.sum_congr rfl fun c' _ => congrArg₂ (· * ·) ?_ ?_) ?_
  · exact rd7_0 V c t _ _ hi0 rfl
  · exact rd7_1 V c t _ _ rfl hi1
  · exact rd7_2 V c t _ _ rfl hi1

/-- An index of the result is in point `t`'s block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v60).slice (win7_3.rect t)).set ↔ _
  rw [View.set_slice_whole, Rect.mem_set_unit]
  exact Iff.rfl

/-- The result array after the region: every row is in the block of its quotient by 5000. -/
theorem final7 (c : Dev nD) : (dat7 (F := Ideal) V c).arrAt 3 cfg7.N = G7 V c :=
  (dat7 V c).arrAt_eq_of_cover 3 (G7 V c) (fun t _ => flushed7 V c t) fun i => by
    have hi0 : (i 0).val < 50000 := (i 0).isLt
    have hi1 : (i 1).val < 128 := (i 1).isLt
    have hN : cfg7.N = 10 := N_7
    refine ⟨⟨(i 0).val / 5000, by rw [hN]; omega⟩, flush7_3 _, ?_⟩
    rw [mem_blk7]
    obtain ⟨-, -, -, -, -, -, e0, e1⟩ := idx7 ⟨(i 0).val / 5000, by rw [hN]; omega⟩
    intro a
    match a with
    | ⟨0, _⟩ => show win7_3.index _ 0 * 5000 ≤ (i 0).val ∧ (i 0).val < win7_3.index _ 0 * 5000 + 5000; rw [e0]; show (i 0).val / 5000 * 5000 ≤ _ ∧ _ < (i 0).val / 5000 * 5000 + 5000; omega
    | ⟨1, _⟩ => show win7_3.index _ 1 * 128 ≤ (i 1).val ∧ (i 1).val < win7_3.index _ 1 * 128 + 128; rw [e1]; omega

end Cert.KernelIdeal.Blocks

end
-- ==== Proof.Fold.lean ====
/-
  The kernel program's buffers, read through its thirteen segments.

  A host stretch rewrites only the buffers its operations write; a region rewrites only its output array.  So a buffer
  written once keeps its contents up to wherever it is read: the arguments from the launch, the edge words and the
  factors from the first host stretch, each layer's features from the region that wrote them.  Following every region's
  inputs back in this way, each region finds exactly the arrays of the array-level network (its input layer, then
  scaled product, gather-and-sum and residual update three times, then the output layer), and the result buffer ends
  holding that network of the argument arrays.
-/
import proofs.«139155_j37082747634276_2_alg».proof.Proof.Gen.KernelIdeal.Frame
import proofs.«139155_j37082747634276_2_alg».proof.Proof.Blocks0
import proofs.«139155_j37082747634276_2_alg».proof.Proof.Blocks1
import proofs.«139155_j37082747634276_2_alg».proof.Proof.Blocks2
import proofs.«139155_j37082747634276_2_alg».proof.Proof.Blocks3
import proofs.«139155_j37082747634276_2_alg».proof.Proof.Blocks4
import proofs.«139155_j37082747634276_2_alg».proof.Proof.Blocks5
import proofs.«139155_j37082747634276_2_alg».proof.Proof.Blocks6
import proofs.«139155_j37082747634276_2_alg».proof.Proof.Blocks7
import proofs.«139155_j37082747634276_2_alg».proof.Proof.KernelValue
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.KernelIdeal.Blocks Cert.KernelIdeal.Nested Cert.Graph Cert.Views

variable (m : (ℓ : Loc nD τ sig) → Buf (Elt Ideal) ℓ) (ρ : Dev nD → PrngReg)

/-! ## What a host stretch leaves alone -/

/-- The buffers host stretch 0 writes. -/
abbrev hostOps0_W : List (Ref sig .tc) := [main_v0, main_v1, main_v2, main_v3, main_v4, main_v5, main_v6, main_cst, main_v7, main_cst_0, main_v8, main_v9, main_v10, main_cst_1, main_v11, main_v12, main_v13, main_v14, main_v15]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 0 does not write keeps its contents across it. -/
theorem hk0 (c : Dev nD) (r : Ref sig .tc) (h : r ∉ hostOps0_W) : W1 m ρ c (Proc.devRef .tc r) = W0 m ρ c (Proc.devRef .tc r) :=
  StableHlo.after_of_writes_sub hostOps0 _ hostOps0_writes h

/-- The buffers host stretch 2 writes. -/
abbrev hostOps2_W : List (Ref sig .tc) := [main_c, main_v18, main_v19, main_c_2, main_v20, main_v21, main_v22, main_v23, main_v24, main_v25, main_cst_3, main_v26, main_v27, main_v28, main_v29]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 2 does not write keeps its contents across it. -/
theorem hk2 (c : Dev nD) (r : Ref sig .tc) (h : r ∉ hostOps2_W) : W4 m ρ c (Proc.devRef .tc r) = W3 m ρ c (Proc.devRef .tc r) :=
  StableHlo.after_of_writes_sub hostOps2 _ hostOps2_writes h

/-- The buffers host stretch 4 writes. -/
abbrev hostOps4_W : List (Ref sig .tc) := [main_c_4, main_v32, main_v33, main_c_5, main_v34, main_v35, main_v36, main_v37, main_v38, main_v39, main_cst_6, main_v40, main_v41, main_v42, main_v43]
theorem hostOps4_writes : (hostOps4 : List (HloOp τ sig (Elt Ideal))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 4 does not write keeps its contents across it. -/
theorem hk4 (c : Dev nD) (r : Ref sig .tc) (h : r ∉ hostOps4_W) : W7 m ρ c (Proc.devRef .tc r) = W6 m ρ c (Proc.devRef .tc r) :=
  StableHlo.after_of_writes_sub hostOps4 _ hostOps4_writes h

/-- The buffers host stretch 6 writes. -/
abbrev hostOps6_W : List (Ref sig .tc) := [main_c_7, main_v46, main_v47, main_c_8, main_v48, main_v49, main_v50, main_v51, main_v52, main_v53, main_cst_9, main_v54, main_v55, main_v56, main_v57]
theorem hostOps6_writes : (hostOps6 : List (HloOp τ sig (Elt Ideal))).Forall fun op => op.writes ⊆ (hostOps6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 6 does not write keeps its contents across it. -/
theorem hk6 (c : Dev nD) (r : Ref sig .tc) (h : r ∉ hostOps6_W) : W10 m ρ c (Proc.devRef .tc r) = W9 m ρ c (Proc.devRef .tc r) :=
  StableHlo.after_of_writes_sub hostOps6 _ hostOps6_writes h

/-- The buffers host stretch 7 writes. -/
abbrev hostOps7_W : List (Ref sig .tc) := [main_v59]
theorem hostOps7_writes : (hostOps7 : List (HloOp τ sig (Elt Ideal))).Forall fun op => op.writes ⊆ (hostOps7_W.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- A buffer host stretch 7 does not write keeps its contents across it. -/
theorem hk7 (c : Dev nD) (r : Ref sig .tc) (h : r ∉ hostOps7_W) : W12 m ρ c (Proc.devRef .tc r) = W11 m ρ c (Proc.devRef .tc r) :=
  StableHlo.after_of_writes_sub hostOps7 _ hostOps7_writes h

/-! ## What a region leaves alone: every buffer but its output array -/

theorem rk0 (c : Dev nD) (b : Ref sig .tc) (hb : b ≠ main_v16) : W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  by_cases h2 : b = main_v15
  · subst h2; exact (W2_arr m ρ c 2).trans (((dat0 (V1 m ρ) c).arrAt_in 2 rfl _).trans (A_eq0 (V1 m ρ) c 2))
  exact W2_of_ne m ρ c b fun
    | 0 => fun e => h0 e.symm
    | 1 => fun e => h1 e.symm
    | 2 => fun e => h2 e.symm
    | 3 => fun e => hb e.symm
    | ⟨_ + 4, h⟩ => absurd h (Nat.not_lt.2 (Nat.le_add_left _ _))

theorem rk1 (c : Dev nD) (b : Ref sig .tc) (hb : b ≠ main_v17) : W3 m ρ c (Proc.devRef .tc b) = W2 m ρ c (Proc.devRef .tc b) := by
  by_cases h0 : b = main_v16
  · subst h0; exact (W3_arr m ρ c 0).trans (((dat1 (V2 m ρ) c).arrAt_in 0 rfl _).trans (A_eq1 (V2 m ρ) c 0))
  by_cases h1 : b = main_arg4
  · subst h1; exact (W3_arr m ρ c 1).trans (((dat1 (V2 m ρ) c).arrAt_in 1 rfl _).trans (A_eq1 (V2 m ρ) c 1))
  by_cases h2 : b = main_v14
  · subst h2; exact (W3_arr m ρ c 2).trans (((dat1 (V2 m ρ) c).arrAt_in 2 rfl _).trans (A_eq1 (V2 m ρ) c 2))
  exact W3_of_ne m ρ c b fun
    | 0 => fun e => h0 e.symm
    | 1 => fun e => h1 e.symm
    | 2 => fun e => h2 e.symm
    | 3 => fun e => hb e.symm
    | ⟨_ + 4, h⟩ => absurd h (Nat.not_lt.2 (Nat.le_add_left _ _))

theorem rk2 (c : Dev nD) (b : Ref sig .tc) (hb : b ≠ main_v30) : W5 m ρ c (Proc.devRef .tc b) = W4 m ρ c (Proc.devRef .tc b) := by
  by_cases h0 : b = main_v16
  · subst h0; exact (W5_arr m ρ c 0).trans (((dat2 (V4 m ρ) c).arrAt_in 0 rfl _).trans (A_eq2 (V4 m ρ) c 0))
  by_cases h1 : b = main_v28
  · subst h1; exact (W5_arr m ρ c 1).trans (((dat2 (V4 m ρ) c).arrAt_in 1 rfl _).trans (A_eq2 (V4 m ρ) c 1))
  by_cases h2 : b = main_v14
  · subst h2; exact (W5_arr m ρ c 2).trans (((dat2 (V4 m ρ) c).arrAt_in 2 rfl _).trans (A_eq2 (V4 m ρ) c 2))
  by_cases h3 : b = main_v29
  · subst h3; exact (W5_arr m ρ c 3).trans (((dat2 (V4 m ρ) c).arrAt_in 3 rfl _).trans (A_eq2 (V4 m ρ) c 3))
  exact W5_of_ne m ρ c b fun
    | 0 => fun e => h0 e.symm
    | 1 => fun e => h1 e.symm
    | 2 => fun e => h2 e.symm
    | 3 => fun e => h3 e.symm
    | 4 => fun e => hb e.symm
    | ⟨_ + 5, h⟩ => absurd h (Nat.not_lt.2 (Nat.le_add_left _ _))

theorem rk3 (c : Dev nD) (b : Ref sig .tc) (hb : b ≠ main_v31) : W6 m ρ c (Proc.devRef .tc b) = W5 m ρ c (Proc.devRef .tc b) := by
  by_cases h0 : b = main_v30
  · subst h0; exact (W6_arr m ρ c 0).trans (((dat3 (V5 m ρ) c).arrAt_in 0 rfl _).trans (A_eq3 (V5 m ρ) c 0))
  by_cases h1 : b = main_arg6
  · subst h1; exact (W6_arr m ρ c 1).trans (((dat3 (V5 m ρ) c).arrAt_in 1 rfl _).trans (A_eq3 (V5 m ρ) c 1))
  by_cases h2 : b = main_v14
  · subst h2; exact (W6_arr m ρ c 2).trans (((dat3 (V5 m ρ) c).arrAt_in 2 rfl _).trans (A_eq3 (V5 m ρ) c 2))
  exact W6_of_ne m ρ c b fun
    | 0 => fun e => h0 e.symm
    | 1 => fun e => h1 e.symm
    | 2 => fun e => h2 e.symm
    | 3 => fun e => hb e.symm
    | ⟨_ + 4, h⟩ => absurd h (Nat.not_lt.2 (Nat.le_add_left _ _))

theorem rk4 (c : Dev nD) (b : Ref sig .tc) (hb : b ≠ main_v44) : W8 m ρ c (Proc.devRef .tc b) = W7 m ρ c (Proc.devRef .tc b) := by
  by_cases h0 : b = main_v30
  · subst h0; exact (W8_arr m ρ c 0).trans (((dat4 (V7 m ρ) c).arrAt_in 0 rfl _).trans (A_eq4 (V7 m ρ) c 0))
  by_cases h1 : b = main_v42
  · subst h1; exact (W8_arr m ρ c 1).trans (((dat4 (V7 m ρ) c).arrAt_in 1 rfl _).trans (A_eq4 (V7 m ρ) c 1))
  by_cases h2 : b = main_v14
  · subst h2; exact (W8_arr m ρ c 2).trans (((dat4 (V7 m ρ) c).arrAt_in 2 rfl _).trans (A_eq4 (V7 m ρ) c 2))
  by_cases h3 : b = main_v43
  · subst h3; exact (W8_arr m ρ c 3).trans (((dat4 (V7 m ρ) c).arrAt_in 3 rfl _).trans (A_eq4 (V7 m ρ) c 3))
  exact W8_of_ne m ρ c b fun
    | 0 => fun e => h0 e.symm
    | 1 => fun e => h1 e.symm
    | 2 => fun e => h2 e.symm
    | 3 => fun e => h3 e.symm
    | 4 => fun e => hb e.symm
    | ⟨_ + 5, h⟩ => absurd h (Nat.not_lt.2 (Nat.le_add_left _ _))

theorem rk5 (c : Dev nD) (b : Ref sig .tc) (hb : b ≠ main_v45) : W9 m ρ c (Proc.devRef .tc b) = W8 m ρ c (Proc.devRef .tc b) := by
  by_cases h0 : b = main_v44
  · subst h0; exact (W9_arr m ρ c 0).trans (((dat5 (V8 m ρ) c).arrAt_in 0 rfl _).trans (A_eq5 (V8 m ρ) c 0))
  by_cases h1 : b = main_arg8
  · subst h1; exact (W9_arr m ρ c 1).trans (((dat5 (V8 m ρ) c).arrAt_in 1 rfl _).trans (A_eq5 (V8 m ρ) c 1))
  by_cases h2 : b = main_v14
  · subst h2; exact (W9_arr m ρ c 2).trans (((dat5 (V8 m ρ) c).arrAt_in 2 rfl _).trans (A_eq5 (V8 m ρ) c 2))
  exact W9_of_ne m ρ c b fun
    | 0 => fun e => h0 e.symm
    | 1 => fun e => h1 e.symm
    | 2 => fun e => h2 e.symm
    | 3 => fun e => hb e.symm
    | ⟨_ + 4, h⟩ => absurd h (Nat.not_lt.2 (Nat.le_add_left _ _))

theorem rk6 (c : Dev nD) (b : Ref sig .tc) (hb : b ≠ main_v58) : W11 m ρ c (Proc.devRef .tc b) = W10 m ρ c (Proc.devRef .tc b) := by
  by_cases h0 : b = main_v44
  · subst h0; exact (W11_arr m ρ c 0).trans (((dat6 (V10 m ρ) c).arrAt_in 0 rfl _).trans (A_eq6 (V10 m ρ) c 0))
  by_cases h1 : b = main_v56
  · subst h1; exact (W11_arr m ρ c 1).trans (((dat6 (V10 m ρ) c).arrAt_in 1 rfl _).trans (A_eq6 (V10 m ρ) c 1))
  by_cases h2 : b = main_v14
  · subst h2; exact (W11_arr m ρ c 2).trans (((dat6 (V10 m ρ) c).arrAt_in 2 rfl _).trans (A_eq6 (V10 m ρ) c 2))
  by_cases h3 : b = main_v57
  · subst h3; exact (W11_arr m ρ c 3).trans (((dat6 (V10 m ρ) c).arrAt_in 3 rfl _).trans (A_eq6 (V10 m ρ) c 3))
  exact W11_of_ne m ρ c b fun
    | 0 => fun e => h0 e.symm
    | 1 => fun e => h1 e.symm
    | 2 => fun e => h2 e.symm
    | 3 => fun e => h3 e.symm
    | 4 => fun e => hb e.symm
    | ⟨_ + 5, h⟩ => absurd h (Nat.not_lt.2 (Nat.le_add_left _ _))

theorem rk7 (c : Dev nD) (b : Ref sig .tc) (hb : b ≠ main_v60) : W13 m ρ c (Proc.devRef .tc b) = W12 m ρ c (Proc.devRef .tc b) := by
  by_cases h0 : b = main_v58
  · subst h0; exact (W13_arr m ρ c 0).trans (((dat7 (V12 m ρ) c).arrAt_in 0 rfl _).trans (A_eq7 (V12 m ρ) c 0))
  by_cases h1 : b = main_arg10
  · subst h1; exact (W13_arr m ρ c 1).trans (((dat7 (V12 m ρ) c).arrAt_in 1 rfl _).trans (A_eq7 (V12 m ρ) c 1))
  by_cases h2 : b = main_v59
  · subst h2; exact (W13_arr m ρ c 2).trans (((dat7 (V12 m ρ) c).arrAt_in 2 rfl _).trans (A_eq7 (V12 m ρ) c 2))
  exact W13_of_ne m ρ c b fun
    | 0 => fun e => h0 e.symm
    | 1 => fun e => h1 e.symm
    | 2 => fun e => h2 e.symm
    | 3 => fun e => hb e.symm
    | ⟨_ + 4, h⟩ => absurd h (Nat.not_lt.2 (Nat.le_add_left _ _))

/-! ## The arrays of the network, from the launch memory -/

section Arrays
variable (c : Dev nD)

/-- The edge list as launched. -/
abbrev eiOf : Words S2x800000 := m ((c : Thread nD τ).loc main_arg1)
/-- Argument 0 as launched. -/
abbrev a0 : Feat := m ((c : Thread nD τ).loc main_arg0)
/-- Argument 2 as launched. -/
abbrev a2 : S128x128.Idx → EReal := m ((c : Thread nD τ).loc main_arg2)
/-- Argument 3 as launched. -/
abbrev a3 : S128.Idx → EReal := m ((c : Thread nD τ).loc main_arg3)
/-- Argument 4 as launched. -/
abbrev a4 : S128x128.Idx → EReal := m ((c : Thread nD τ).loc main_arg4)
/-- Argument 5 as launched. -/
abbrev a5 : S128.Idx → EReal := m ((c : Thread nD τ).loc main_arg5)
/-- Argument 6 as launched. -/
abbrev a6 : S128x128.Idx → EReal := m ((c : Thread nD τ).loc main_arg6)
/-- Argument 7 as launched. -/
abbrev a7 : S128.Idx → EReal := m ((c : Thread nD τ).loc main_arg7)
/-- Argument 8 as launched. -/
abbrev a8 : S128x128.Idx → EReal := m ((c : Thread nD τ).loc main_arg8)
/-- Argument 9 as launched. -/
abbrev a9 : S128.Idx → EReal := m ((c : Thread nD τ).loc main_arg9)
/-- Argument 10 as launched. -/
abbrev a10 : S128x128.Idx → EReal := m ((c : Thread nD τ).loc main_arg10)
/-- Argument 11 as launched. -/
abbrev a11 : S128.Idx → EReal := m ((c : Thread nD τ).loc main_arg11)

/-- The factor column. -/
def kD : S50000x1.Idx → EReal := dinvCol (eiOf m c)
/-- The input layer's features. -/
def kH0 : Feat := denseReluArr (a0 m c) (a2 m c) (biasRow (a3 m c))
/-- The first layer's scaled product and features. -/
def kS1 : Feat := scaleArr (kH0 m c) (a4 m c) (kD m c)
def kH1 : Feat := layerArr (eiOf m c) (kH0 m c) (a4 m c) (a5 m c)
/-- The second layer's scaled product and features. -/
def kS2 : Feat := scaleArr (kH1 m c) (a6 m c) (kD m c)
def kH2 : Feat := layerArr (eiOf m c) (kH1 m c) (a6 m c) (a7 m c)
/-- The third layer's scaled product and features. -/
def kS3 : Feat := scaleArr (kH2 m c) (a8 m c) (kD m c)
def kH3 : Feat := layerArr (eiOf m c) (kH2 m c) (a8 m c) (a9 m c)

end Arrays

/-! ## Each buffer where it is read -/
theorem at1_v3 (c : Dev nD) : W1 m ρ c (Proc.devRef .tc main_v3) = rowWords (eiOf m c) := by
  show StableHlo.after hostOps0 (W0 m ρ c) (Proc.devRef .tc main_v3) = _
  after_results
  rfl
theorem at1_v6 (c : Dev nD) : W1 m ρ c (Proc.devRef .tc main_v6) = colWords (eiOf m c) := by
  show StableHlo.after hostOps0 (W0 m ρ c) (Proc.devRef .tc main_v6) = _
  after_results
  rfl
theorem at1_v14 (c : Dev nD) : W1 m ρ c (Proc.devRef .tc main_v14) = kD m c := by
  show StableHlo.after hostOps0 (W0 m ρ c) (Proc.devRef .tc main_v14) = _
  after_results
  rfl
theorem at1_v15 (c : Dev nD) : W1 m ρ c (Proc.devRef .tc main_v15) = biasRow (a3 m c) := by
  show StableHlo.after hostOps0 (W0 m ρ c) (Proc.devRef .tc main_v15) = _
  after_results
  rfl
theorem at1_arg0 (c : Dev nD) : W1 m ρ c (Proc.devRef .tc main_arg0) = a0 m c :=
  (hk0 m ρ c main_arg0 (by decide)).trans rfl
theorem at1_arg2 (c : Dev nD) : W1 m ρ c (Proc.devRef .tc main_arg2) = a2 m c :=
  (hk0 m ρ c main_arg2 (by decide)).trans rfl
theorem at2_v16 (c : Dev nD) : W2 m ρ c (Proc.devRef .tc main_v16) = kH0 m c := by
  refine (W2_arr m ρ c 3).trans ((final0 (V1 m ρ) c).trans ?_)
  show denseReluArr (W1 m ρ c (Proc.devRef .tc main_arg0)) (W1 m ρ c (Proc.devRef .tc main_arg2)) (W1 m ρ c (Proc.devRef .tc main_v15)) = _
  rw [at1_arg0 m ρ c, at1_arg2 m ρ c, at1_v15 m ρ c]
  rfl
theorem at2_arg4 (c : Dev nD) : W2 m ρ c (Proc.devRef .tc main_arg4) = a4 m c :=
  ((rk0 m ρ c main_arg4 (by decide)).trans (hk0 m ρ c main_arg4 (by decide))).trans rfl
theorem at2_v14 (c : Dev nD) : W2 m ρ c (Proc.devRef .tc main_v14) = kD m c :=
  (rk0 m ρ c main_v14 (by decide)).trans (at1_v14 m ρ c)
theorem at3_v17 (c : Dev nD) : W3 m ρ c (Proc.devRef .tc main_v17) = kS1 m c := by
  refine (W3_arr m ρ c 3).trans ((final1 (V2 m ρ) c).trans ?_)
  show scaleArr (W2 m ρ c (Proc.devRef .tc main_v16)) (W2 m ρ c (Proc.devRef .tc main_arg4)) (W2 m ρ c (Proc.devRef .tc main_v14)) = _
  rw [at2_v16 m ρ c, at2_arg4 m ρ c, at2_v14 m ρ c]
  rfl
theorem at3_v3 (c : Dev nD) : W3 m ρ c (Proc.devRef .tc main_v3) = rowWords (eiOf m c) :=
  ((rk1 m ρ c main_v3 (by decide)).trans (rk0 m ρ c main_v3 (by decide))).trans (at1_v3 m ρ c)
theorem at3_v6 (c : Dev nD) : W3 m ρ c (Proc.devRef .tc main_v6) = colWords (eiOf m c) :=
  ((rk1 m ρ c main_v6 (by decide)).trans (rk0 m ρ c main_v6 (by decide))).trans (at1_v6 m ρ c)
theorem at3_arg5 (c : Dev nD) : W3 m ρ c (Proc.devRef .tc main_arg5) = a5 m c :=
  ((rk1 m ρ c main_arg5 (by decide)).trans ((rk0 m ρ c main_arg5 (by decide)).trans (hk0 m ρ c main_arg5 (by decide)))).trans rfl
theorem at4_v28 (c : Dev nD) : W4 m ρ c (Proc.devRef .tc main_v28) = aggregateRows (rowWords (eiOf m c)) (colWords (eiOf m c)) (kS1 m c) := by
  show StableHlo.after hostOps2 (W3 m ρ c) (Proc.devRef .tc main_v28) = _
  after_results
  rw [at3_v3 m ρ c, at3_v6 m ρ c, at3_v17 m ρ c]
  rfl
theorem at4_v29 (c : Dev nD) : W4 m ρ c (Proc.devRef .tc main_v29) = biasRow (a5 m c) := by
  show StableHlo.after hostOps2 (W3 m ρ c) (Proc.devRef .tc main_v29) = _
  after_results
  rw [at3_arg5 m ρ c]
  rfl
theorem at4_v16 (c : Dev nD) : W4 m ρ c (Proc.devRef .tc main_v16) = kH0 m c :=
  ((hk2 m ρ c main_v16 (by decide)).trans (rk1 m ρ c main_v16 (by decide))).trans (at2_v16 m ρ c)
theorem at4_v14 (c : Dev nD) : W4 m ρ c (Proc.devRef .tc main_v14) = kD m c :=
  ((hk2 m ρ c main_v14 (by decide)).trans ((rk1 m ρ c main_v14 (by decide)).trans (rk0 m ρ c main_v14 (by decide)))).trans (at1_v14 m ρ c)
theorem at5_v30 (c : Dev nD) : W5 m ρ c (Proc.devRef .tc main_v30) = kH1 m c := by
  refine (W5_arr m ρ c 4).trans ((final2 (V4 m ρ) c).trans ?_)
  show combineArr (W4 m ρ c (Proc.devRef .tc main_v16)) (W4 m ρ c (Proc.devRef .tc main_v28)) (W4 m ρ c (Proc.devRef .tc main_v14)) (W4 m ρ c (Proc.devRef .tc main_v29)) = _
  rw [at4_v16 m ρ c, at4_v28 m ρ c, at4_v14 m ρ c, at4_v29 m ρ c]
  rfl
theorem at5_arg6 (c : Dev nD) : W5 m ρ c (Proc.devRef .tc main_arg6) = a6 m c :=
  ((rk2 m ρ c main_arg6 (by decide)).trans ((hk2 m ρ c main_arg6 (by decide)).trans ((rk1 m ρ c main_arg6 (by decide)).trans ((rk0 m ρ c main_arg6 (by decide)).trans (hk0 m ρ c main_arg6 (by decide)))))).trans rfl
theorem at5_v14 (c : Dev nD) : W5 m ρ c (Proc.devRef .tc main_v14) = kD m c :=
  ((rk2 m ρ c main_v14 (by decide)).trans ((hk2 m ρ c main_v14 (by decide)).trans ((rk1 m ρ c main_v14 (by decide)).trans (rk0 m ρ c main_v14 (by decide))))).trans (at1_v14 m ρ c)
theorem at6_v31 (c : Dev nD) : W6 m ρ c (Proc.devRef .tc main_v31) = kS2 m c := by
  refine (W6_arr m ρ c 3).trans ((final3 (V5 m ρ) c).trans ?_)
  show scaleArr (W5 m ρ c (Proc.devRef .tc main_v30)) (W5 m ρ c (Proc.devRef .tc main_arg6)) (W5 m ρ c (Proc.devRef .tc main_v14)) = _
  rw [at5_v30 m ρ c, at5_arg6 m ρ c, at5_v14 m ρ c]
  rfl
theorem at6_v3 (c : Dev nD) : W6 m ρ c (Proc.devRef .tc main_v3) = rowWords (eiOf m c) :=
  ((rk3 m ρ c main_v3 (by decide)).trans ((rk2 m ρ c main_v3 (by decide)).trans ((hk2 m ρ c main_v3 (by decide)).trans ((rk1 m ρ c main_v3 (by decide)).trans (rk0 m ρ c main_v3 (by decide)))))).trans (at1_v3 m ρ c)
theorem at6_v6 (c : Dev nD) : W6 m ρ c (Proc.devRef .tc main_v6) = colWords (eiOf m c) :=
  ((rk3 m ρ c main_v6 (by decide)).trans ((rk2 m ρ c main_v6 (by decide)).trans ((hk2 m ρ c main_v6 (by decide)).trans ((rk1 m ρ c main_v6 (by decide)).trans (rk0 m ρ c main_v6 (by decide)))))).trans (at1_v6 m ρ c)
theorem at6_arg7 (c : Dev nD) : W6 m ρ c (Proc.devRef .tc main_arg7) = a7 m c :=
  ((rk3 m ρ c main_arg7 (by decide)).trans ((rk2 m ρ c main_arg7 (by decide)).trans ((hk2 m ρ c main_arg7 (by decide)).trans ((rk1 m ρ c main_arg7 (by decide)).trans ((rk0 m ρ c main_arg7 (by decide)).trans (hk0 m ρ c main_arg7 (by decide))))))).trans rfl
theorem at7_v42 (c : Dev nD) : W7 m ρ c (Proc.devRef .tc main_v42) = aggregateRows (rowWords (eiOf m c)) (colWords (eiOf m c)) (kS2 m c) := by
  show StableHlo.after hostOps4 (W6 m ρ c) (Proc.devRef .tc main_v42) = _
  after_results
  rw [at6_v3 m ρ c, at6_v6 m ρ c, at6_v31 m ρ c]
  rfl
theorem at7_v43 (c : Dev nD) : W7 m ρ c (Proc.devRef .tc main_v43) = biasRow (a7 m c) := by
  show StableHlo.after hostOps4 (W6 m ρ c) (Proc.devRef .tc main_v43) = _
  after_results
  rw [at6_arg7 m ρ c]
  rfl
theorem at7_v30 (c : Dev nD) : W7 m ρ c (Proc.devRef .tc main_v30) = kH1 m c :=
  ((hk4 m ρ c main_v30 (by decide)).trans (rk3 m ρ c main_v30 (by decide))).trans (at5_v30 m ρ c)
theorem at7_v14 (c : Dev nD) : W7 m ρ c (Proc.devRef .tc main_v14) = kD m c :=
  ((hk4 m ρ c main_v14 (by decide)).trans ((rk3 m ρ c main_v14 (by decide)).trans ((rk2 m ρ c main_v14 (by decide)).trans ((hk2 m ρ c main_v14 (by decide)).trans ((rk1 m ρ c main_v14 (by decide)).trans (rk0 m ρ c main_v14 (by decide))))))).trans (at1_v14 m ρ c)
theorem at8_v44 (c : Dev nD) : W8 m ρ c (Proc.devRef .tc main_v44) = kH2 m c := by
  refine (W8_arr m ρ c 4).trans ((final4 (V7 m ρ) c).trans ?_)
  show combineArr (W7 m ρ c (Proc.devRef .tc main_v30)) (W7 m ρ c (Proc.devRef .tc main_v42)) (W7 m ρ c (Proc.devRef .tc main_v14)) (W7 m ρ c (Proc.devRef .tc main_v43)) = _
  rw [at7_v30 m ρ c, at7_v42 m ρ c, at7_v14 m ρ c, at7_v43 m ρ c]
  rfl
theorem at8_arg8 (c : Dev nD) : W8 m ρ c (Proc.devRef .tc main_arg8) = a8 m c :=
  ((rk4 m ρ c main_arg8 (by decide)).trans ((hk4 m ρ c main_arg8 (by decide)).trans ((rk3 m ρ c main_arg8 (by decide)).trans ((rk2 m ρ c main_arg8 (by decide)).trans ((hk2 m ρ c main_arg8 (by decide)).trans ((rk1 m ρ c main_arg8 (by decide)).trans ((rk0 m ρ c main_arg8 (by decide)).trans (hk0 m ρ c main_arg8 (by decide))))))))).trans rfl
theorem at8_v14 (c : Dev nD) : W8 m ρ c (Proc.devRef .tc main_v14) = kD m c :=
  ((rk4 m ρ c main_v14 (by decide)).trans ((hk4 m ρ c main_v14 (by decide)).trans ((rk3 m ρ c main_v14 (by decide)).trans ((rk2 m ρ c main_v14 (by decide)).trans ((hk2 m ρ c main_v14 (by decide)).trans ((rk1 m ρ c main_v14 (by decide)).trans (rk0 m ρ c main_v14 (by decide)))))))).trans (at1_v14 m ρ c)
theorem at9_v45 (c : Dev nD) : W9 m ρ c (Proc.devRef .tc main_v45) = kS3 m c := by
  refine (W9_arr m ρ c 3).trans ((final5 (V8 m ρ) c).trans ?_)
  show scaleArr (W8 m ρ c (Proc.devRef .tc main_v44)) (W8 m ρ c (Proc.devRef .tc main_arg8)) (W8 m ρ c (Proc.devRef .tc main_v14)) = _
  rw [at8_v44 m ρ c, at8_arg8 m ρ c, at8_v14 m ρ c]
  rfl
theorem at9_v3 (c : Dev nD) : W9 m ρ c (Proc.devRef .tc main_v3) = rowWords (eiOf m c) :=
  ((rk5 m ρ c main_v3 (by decide)).trans ((rk4 m ρ c main_v3 (by decide)).trans ((hk4 m ρ c main_v3 (by decide)).trans ((rk3 m ρ c main_v3 (by decide)).trans ((rk2 m ρ c main_v3 (by decide)).trans ((hk2 m ρ c main_v3 (by decide)).trans ((rk1 m ρ c main_v3 (by decide)).trans (rk0 m ρ c main_v3 (by decide))))))))).trans (at1_v3 m ρ c)
theorem at9_v6 (c : Dev nD) : W9 m ρ c (Proc.devRef .tc main_v6) = colWords (eiOf m c) :=
  ((rk5 m ρ c main_v6 (by decide)).trans ((rk4 m ρ c main_v6 (by decide)).trans ((hk4 m ρ c main_v6 (by decide)).trans ((rk3 m ρ c main_v6 (by decide)).trans ((rk2 m ρ c main_v6 (by decide)).trans ((hk2 m ρ c main_v6 (by decide)).trans ((rk1 m ρ c main_v6 (by decide)).trans (rk0 m ρ c main_v6 (by decide))))))))).trans (at1_v6 m ρ c)
theorem at9_arg9 (c : Dev nD) : W9 m ρ c (Proc.devRef .tc main_arg9) = a9 m c :=
  ((rk5 m ρ c main_arg9 (by decide)).trans ((rk4 m ρ c main_arg9 (by decide)).trans ((hk4 m ρ c main_arg9 (by decide)).trans ((rk3 m ρ c main_arg9 (by decide)).trans ((rk2 m ρ c main_arg9 (by decide)).trans ((hk2 m ρ c main_arg9 (by decide)).trans ((rk1 m ρ c main_arg9 (by decide)).trans ((rk0 m ρ c main_arg9 (by decide)).trans (hk0 m ρ c main_arg9 (by decide)))))))))).trans rfl
theorem at10_v56 (c : Dev nD) : W10 m ρ c (Proc.devRef .tc main_v56) = aggregateRows (rowWords (eiOf m c)) (colWords (eiOf m c)) (kS3 m c) := by
  show StableHlo.after hostOps6 (W9 m ρ c) (Proc.devRef .tc main_v56) = _
  after_results
  rw [at9_v3 m ρ c, at9_v6 m ρ c, at9_v45 m ρ c]
  rfl
theorem at10_v57 (c : Dev nD) : W10 m ρ c (Proc.devRef .tc main_v57) = biasRow (a9 m c) := by
  show StableHlo.after hostOps6 (W9 m ρ c) (Proc.devRef .tc main_v57) = _
  after_results
  rw [at9_arg9 m ρ c]
  rfl
theorem at10_v44 (c : Dev nD) : W10 m ρ c (Proc.devRef .tc main_v44) = kH2 m c :=
  ((hk6 m ρ c main_v44 (by decide)).trans (rk5 m ρ c main_v44 (by decide))).trans (at8_v44 m ρ c)
theorem at10_v14 (c : Dev nD) : W10 m ρ c (Proc.devRef .tc main_v14) = kD m c :=
  ((hk6 m ρ c main_v14 (by decide)).trans ((rk5 m ρ c main_v14 (by decide)).trans ((rk4 m ρ c main_v14 (by decide)).trans ((hk4 m ρ c main_v14 (by decide)).trans ((rk3 m ρ c main_v14 (by decide)).trans ((rk2 m ρ c main_v14 (by decide)).trans ((hk2 m ρ c main_v14 (by decide)).trans ((rk1 m ρ c main_v14 (by decide)).trans (rk0 m ρ c main_v14 (by decide)))))))))).trans (at1_v14 m ρ c)
theorem at11_v58 (c : Dev nD) : W11 m ρ c (Proc.devRef .tc main_v58) = kH3 m c := by
  refine (W11_arr m ρ c 4).trans ((final6 (V10 m ρ) c).trans ?_)
  show combineArr (W10 m ρ c (Proc.devRef .tc main_v44)) (W10 m ρ c (Proc.devRef .tc main_v56)) (W10 m ρ c (Proc.devRef .tc main_v14)) (W10 m ρ c (Proc.devRef .tc main_v57)) = _
  rw [at10_v44 m ρ c, at10_v56 m ρ c, at10_v14 m ρ c, at10_v57 m ρ c]
  rfl
theorem at11_arg11 (c : Dev nD) : W11 m ρ c (Proc.devRef .tc main_arg11) = a11 m c :=
  ((rk6 m ρ c main_arg11 (by decide)).trans ((hk6 m ρ c main_arg11 (by decide)).trans ((rk5 m ρ c main_arg11 (by decide)).trans ((rk4 m ρ c main_arg11 (by decide)).trans ((hk4 m ρ c main_arg11 (by decide)).trans ((rk3 m ρ c main_arg11 (by decide)).trans ((rk2 m ρ c main_arg11 (by decide)).trans ((hk2 m ρ c main_arg11 (by decide)).trans ((rk1 m ρ c main_arg11 (by decide)).trans ((rk0 m ρ c main_arg11 (by decide)).trans (hk0 m ρ c main_arg11 (by decide)))))))))))).trans rfl
theorem at12_v59 (c : Dev nD) : W12 m ρ c (Proc.devRef .tc main_v59) = biasRow (a11 m c) := by
  show StableHlo.after hostOps7 (W11 m ρ c) (Proc.devRef .tc main_v59) = _
  after_results
  rw [at11_arg11 m ρ c]
  rfl
theorem at12_v58 (c : Dev nD) : W12 m ρ c (Proc.devRef .tc main_v58) = kH3 m c :=
  (hk7 m ρ c main_v58 (by decide)).trans (at11_v58 m ρ c)
theorem at12_arg10 (c : Dev nD) : W12 m ρ c (Proc.devRef .tc main_arg10) = a10 m c :=
  ((hk7 m ρ c main_arg10 (by decide)).trans ((rk6 m ρ c main_arg10 (by decide)).trans ((hk6 m ρ c main_arg10 (by decide)).trans ((rk5 m ρ c main_arg10 (by decide)).trans ((rk4 m ρ c main_arg10 (by decide)).trans ((hk4 m ρ c main_arg10 (by decide)).trans ((rk3 m ρ c main_arg10 (by decide)).trans ((rk2 m ρ c main_arg10 (by decide)).trans ((hk2 m ρ c main_arg10 (by decide)).trans ((rk1 m ρ c main_arg10 (by decide)).trans ((rk0 m ρ c main_arg10 (by decide)).trans (hk0 m ρ c main_arg10 (by decide))))))))))))).trans rfl

/-- The result buffer ends holding the array-level network of the argument arrays. -/
theorem result (c : Dev nD) : W13 m ρ c (Proc.devRef .tc main_v60)
    = netArr (eiOf m c) (a0 m c) (a2 m c) (a3 m c) (a4 m c) (a5 m c) (a6 m c) (a7 m c) (a8 m c) (a9 m c) (a10 m c) (a11 m c) := by
  refine (W13_arr m ρ c 3).trans ((final7 (V12 m ρ) c).trans ?_)
  show denseArr (W12 m ρ c (Proc.devRef .tc main_v58)) (W12 m ρ c (Proc.devRef .tc main_arg10)) (W12 m ρ c (Proc.devRef .tc main_v59)) = _
  rw [at12_v58 m ρ c, at12_arg10 m ρ c, at12_v59 m ρ c]
  rfl

end Cert.KernelIdeal.Fold

end
-- ==== Proof.RefValue.lean ====
/-
  The reference program's result as one closed function of its twelve arguments, at the ideal values (the extended reals).

  The program computes `h₀ = max (x · W_in + b_in) 0`, then three times
  `h ← h + max ((Σ over the edges e whose target word, read signed, is n, of (h · W)[src e, j] · (dinv (src e) · dinv (tgt e))) + b j) 0`,
  and last `h · W_out + b_out`.  Each of these is first read as a function of ARRAYS (a product with the weights, a row
  gather by the edges' source words, a product with the per-edge factor broadcast along the rows, a row scatter-add onto
  zeros by the edges' target words, a bias broadcast to every row, a maximum with zeros, a sum with the incoming
  features), read at an index `(n, j)` with the lemmas on row gathers, element gathers, row scatter-adds and matrix
  products; the index arrays the three layers share are the graph's own (source words and target words moved up when
  negative, target words as they are, the nodes' factors), so a layer of arrays is the network's layer over the graph's
  edges, and the chain of layers is the network.
-/
import proofs.«139155_j37082747634276_2_alg».proof.Proof.Gen.ReferenceIdeal.Read
import proofs.«139155_j37082747634276_2_alg».proof.Proof.Gen.KernelIdeal
import proofs.«139155_j37082747634276_2_alg».proof.Proof.Layers
import proofs.«139155_j37082747634276_2_alg».proof.Proof.GraphData
import proofs.«139155_j37082747634276_2_alg».proof.Proof.Views
import proofs.«139155_j37082747634276_2_alg».proof.Proof.LibRowGatherScatter
import proofs.«139155_j37082747634276_2_alg».proof.Proof.LibScatterAddSum
import proofs.«139155_j37082747634276_2_alg».proof.Proof.LibHostMatmul
import proofs.«139155_j37082747634276_2_alg».proof.Proof.LibFiniteSums
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

open scoped BigOperators

namespace Cert.ReferenceIdeal.RefValue

open Idealize.ShloMosaic Idealize.ShloMosaic.ValueIdx Idealize.ShloMosaic.RowGatherScatter Idealize.ShloMosaic.DenseLayers
open Cert.ReferenceIdeal Cert.ReferenceIdeal.Gen

/-- An array of 32-bit words of a given shape. -/
abbrev Words (s : Shape) : Type := IVec s 32
/-- An array of extended reals of a given shape. -/
abbrev Reals (s : Shape) : Type := FVec Ideal s .f32

/-! ## The program's data-dependent operations read at an index -/

/-- The row scatter-add at `(n, j)`: the operand's element plus the sum of the update rows whose index word is `n`. -/
theorem scatter_read (X : Reals S50000x128) (I : Words S850000x1) (U : Reals S850000x128) (n : Fin 50000) (j : Fin 128) :
    Host.scatterAdd (F := Ideal) scatter_S50000x128_S850000x1_S850000x128_1_0_0_1 X I U (ix2 n j)
      = X (ix2 n j) + ∑ e ∈ Finset.univ.filter (fun e : Fin 850000 => (I (ix2 e (0 : Fin 1))).toInt = (n.val : Int)),
          U (ix2 e j) :=
  rowScatterAdd_apply scatter_S50000x128_S850000x1_S850000x128_1_0_0_1_wf X I U n j

/-- The row gather at `(e, j)`: the operand's row at the clamped index word, column `j`. -/
theorem gatherRows_read (X : Reals S50000x128) (I : Words S850000x1) (e : Fin 850000) (j : Fin 128) :
    Host.gather gather_S50000x128_S850000x1_S850000x128_1_0_n_n_0_1_1128 X I (ix2 e j)
      = X (ix2 (clampRow 50000 Cert.Graph.nodes_pos (I (ix2 e (0 : Fin 1)))) j) :=
  gather_rows_apply Cert.Graph.nodes_pos gather_S50000x128_S850000x1_S850000x128_1_0_n_n_0_1_1128_wf X I e j

/-- The element gather at `e`: the operand's element at the clamped index word. -/
theorem gatherElems_read (X : Reals S50000) (I : Words S850000x1) (e : Fin 850000) :
    Host.gather gather_S50000_S850000x1_S850000_n_0_n_n_0_1_1 X I (ix1 e)
      = X (ix1 (clampRow 50000 Cert.Graph.nodes_pos (I (ix2 e (0 : Fin 1))))) :=
  gather_elems_apply Cert.Graph.nodes_pos gather_S50000_S850000x1_S850000_n_0_n_n_0_1_1_wf X I e

/-- The matrix product at `(a, b)`. -/
theorem dot_read (A : Reals S50000x128) (B : Reals S128x128) (a : Fin 50000) (b : Fin 128) :
    Host.dotGeneral dot_S50000x128_S128x128_S50000x128_1_0_0_1_n_n none A B (ix2 a b)
      = ∑ c : Fin 128, A (ix2 a c) * B (ix2 c b) :=
  dotGeneral_rowcol_apply dot_S50000x128_S128x128_S50000x128_1_0_0_1_n_n_wf none A B a b

/-- The array of zeros the rectifier compares with and the scatter accumulates onto. -/
abbrev zerosArr : Reals S50000x128 :=
  broadcastInDim S50000x128 ![] bcast_S_S50000x128 (constant (F := Ideal) S_ .f32 0x00000000#32)

/-- A bias broadcast to every row. -/
abbrev biasArr (b : Reals S128) : Reals S50000x128 :=
  broadcastInDim S50000x128 ![0, 1] bcast_S1x128_S50000x128_0_1 (broadcastInDim S1x128 ![1] bcast_S128_S1x128_1 b)

/-- The bias, broadcast to a row and then to every row, at `(n, j)`. -/
theorem bias_read (b : Reals S128) (n : Fin 50000) (j : Fin 128) :
    biasArr b (ix2 n j) = b (ix1 j) := by
  refine (broadcastInDim_apply _ bcast_S1x128_S50000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A per-edge factor, broadcast to a column and then along every row, at `(e, j)`. -/
theorem column_read (v : Reals S850000) (e : Fin 850000) (j : Fin 128) :
    broadcastInDim S850000x128 ![0, 1] bcast_S850000x1_S850000x128_0_1 (broadcastInDim S850000x1 ![0] bcast_S850000_S850000x1_0 v) (ix2 e j)
      = v (ix1 e) := by
  refine (broadcastInDim_apply _ bcast_S850000x1_S850000x128_0_1 _ (ix2 e j) (ix2 e (0 : Fin 1)) (fun a => match a with
    | ⟨0, _⟩ => by show e.val = if (850000 : Nat) = 1 then 0 else e.val; rw [if_neg (by decide)]
    | ⟨1, _⟩ => by show 0 = if (1 : Nat) = 1 then 0 else j.val; rw [if_pos rfl])).trans ?_
  exact broadcastInDim_apply _ bcast_S850000_S850000x1_0 v (ix2 e (0 : Fin 1)) (ix1 e) (fun a => match a with
    | ⟨0, _⟩ => by show e.val = if (850000 : Nat) = 1 then 0 else e.val; rw [if_neg (by decide)])

/-- The array of zeros reads zero everywhere. -/
theorem zeros_read (i : S50000x128.Idx) :
    zerosArr i = (0 : EReal) := by
  show broadcastInDim S50000x128 ![] bcast_S_S50000x128 (constant (F := Ideal) S_ .f32 0x00000000#32) i = (0 : EReal)
  rw [broadcastInDim_scalar_constant_apply, Ideal.ofBits_zero_f32]

/-! ## The layers as functions of arrays -/

/-- An affine layer of the program: the product with the weights plus the bias. -/
def denseArr (H : Reals S50000x128) (W : Reals S128x128) (b : Reals S128) : Reals S50000x128 :=
  addf (Host.dotGeneral dot_S50000x128_S128x128_S50000x128_1_0_0_1_n_n none H W) (biasArr b)

/-- An affine layer followed by the rectifier. -/
def denseReluArr (H : Reals S50000x128) (W : Reals S128x128) (b : Reals S128) : Reals S50000x128 :=
  maximumf (denseArr H W b) zerosArr

/-- The weighted message rows: each edge's source row of the projected features times the edge's two factors. -/
def edgeUpd (ri ci : Words S850000x1) (dv : Reals S50000) (H : Reals S50000x128) (W : Reals S128x128) : Reals S850000x128 :=
  mulf (Host.gather gather_S50000x128_S850000x1_S850000x128_1_0_n_n_0_1_1128
      (Host.dotGeneral dot_S50000x128_S128x128_S50000x128_1_0_0_1_n_n none H W) ri)
    (broadcastInDim S850000x128 ![0, 1] bcast_S850000x1_S850000x128_0_1
      (broadcastInDim S850000x1 ![0] bcast_S850000_S850000x1_0
        (mulf (Host.gather gather_S50000_S850000x1_S850000_n_0_n_n_0_1_1 dv ri)
          (Host.gather gather_S50000_S850000x1_S850000_n_0_n_n_0_1_1 dv ci))))

/-- A residual layer of the program, over arbitrary index arrays `ri` (gather indices of the sources), `ci` (gather
    indices of the targets), `si` (scatter indices) and node factors `dv`: project, gather each edge's source row,
    weight it by the two factors, add the rows up at the targets, add the bias, rectify, add to the features. -/
def layerArr (ri ci si : Words S850000x1) (dv : Reals S50000) (H : Reals S50000x128) (W : Reals S128x128) (b : Reals S128) :
    Reals S50000x128 :=
  addf H (maximumf (addf
    (Host.scatterAdd (F := Ideal) scatter_S50000x128_S850000x1_S850000x128_1_0_0_1 zerosArr si (edgeUpd ri ci dv H W))
    (biasArr b)) zerosArr)

theorem denseArr_read (H : Reals S50000x128) (W : Reals S128x128) (b : Reals S128) (n : Fin 50000) (j : Fin 128) :
    denseArr H W b (ix2 n j) = (∑ c : Fin 128, H (ix2 n c) * W (ix2 c j)) + b (ix1 j) := by
  unfold denseArr
  rw [addf_apply, dot_read, bias_read]

theorem denseReluArr_read (H : Reals S50000x128) (W : Reals S128x128) (b : Reals S128) (n : Fin 50000) (j : Fin 128) :
    denseReluArr H W b (ix2 n j) = max ((∑ c : Fin 128, H (ix2 n c) * W (ix2 c j)) + b (ix1 j)) 0 := by
  unfold denseReluArr
  rw [maximumf_apply, denseArr_read, zeros_read]

theorem edgeUpd_read (ri ci : Words S850000x1) (dv : Reals S50000) (H : Reals S50000x128) (W : Reals S128x128)
    (e : Fin 850000) (j : Fin 128) :
    edgeUpd ri ci dv H W (ix2 e j)
      = (∑ c : Fin 128, H (ix2 (clampRow 50000 Cert.Graph.nodes_pos (ri (ix2 e (0 : Fin 1)))) c) * W (ix2 c j))
          * (dv (ix1 (clampRow 50000 Cert.Graph.nodes_pos (ri (ix2 e (0 : Fin 1)))))
              * dv (ix1 (clampRow 50000 Cert.Graph.nodes_pos (ci (ix2 e (0 : Fin 1)))))) := by
  unfold edgeUpd
  rw [mulf_apply, gatherRows_read, dot_read, column_read, mulf_apply, gatherElems_read, gatherElems_read]

theorem layerArr_read (ri ci si : Words S850000x1) (dv : Reals S50000) (H : Reals S50000x128) (W : Reals S128x128)
    (b : Reals S128) (n : Fin 50000) (j : Fin 128) :
    layerArr ri ci si dv H W b (ix2 n j)
      = H (ix2 n j) + max ((∑ e ∈ Finset.univ.filter (fun e : Fin 850000 => (si (ix2 e (0 : Fin 1))).toInt = (n.val : Int)),
            (∑ c : Fin 128, H (ix2 (clampRow 50000 Cert.Graph.nodes_pos (ri (ix2 e (0 : Fin 1)))) c) * W (ix2 c j))
              * (dv (ix1 (clampRow 50000 Cert.Graph.nodes_pos (ri (ix2 e (0 : Fin 1)))))
                  * dv (ix1 (clampRow 50000 Cert.Graph.nodes_pos (ci (ix2 e (0 : Fin 1))))))) + b (ix1 j)) 0 := by
  unfold layerArr
  rw [addf_apply, maximumf_apply, addf_apply, scatter_read, bias_read, zeros_read, zero_add,
    Finset.sum_congr rfl (fun e _ => edgeUpd_read ri ci dv H W e j)]

/-! ## The program's values are the layers of arrays -/

open Cert.ReferenceIdeal.Read in
theorem v33_eq (x0 : Reals S50000x128) (x2 : Reals S128x128) (x3 : Reals S128) :
    val_main_v33 (F := Ideal) x0 x2 x3 = denseReluArr x0 x2 x3 := rfl

open Cert.ReferenceIdeal.Read in
theorem v52_eq (x0 : Reals S50000x128) (x1 : Words S2x800000) (x2 : Reals S128x128) (x3 : Reals S128)
    (x4 : Reals S128x128) (x5 : Reals S128) :
    val_main_v52 (F := Ideal) x0 x1 x2 x3 x4 x5
      = layerArr (val_main_v40 (F := Ideal) x1) (val_main_v26 (F := Ideal) x1) (val_main_v46 (F := Ideal) x1)
          (val_main_v13 (F := Ideal) x1) (val_main_v33 (F := Ideal) x0 x2 x3) x4 x5 := rfl

open Cert.ReferenceIdeal.Read in
theorem v71_eq (x0 : Reals S50000x128) (x1 : Words S2x800000) (x2 : Reals S128x128) (x3 : Reals S128)
    (x4 : Reals S128x128) (x5 : Reals S128) (x6 : Reals S128x128) (x7 : Reals S128) :
    val_main_v71 (F := Ideal) x0 x1 x2 x3 x4 x5 x6 x7
      = layerArr (val_main_v40 (F := Ideal) x1) (val_main_v26 (F := Ideal) x1) (val_main_v46 (F := Ideal) x1)
          (val_main_v13 (F := Ideal) x1) (val_main_v52 (F := Ideal) x0 x1 x2 x3 x4 x5) x6 x7 := rfl

open Cert.ReferenceIdeal.Read in
theorem v90_eq (x0 : Reals S50000x128) (x1 : Words S2x800000) (x2 : Reals S128x128) (x3 : Reals S128)
    (x4 : Reals S128x128) (x5 : Reals S128) (x6 : Reals S128x128) (x7 : Reals S128) (x8 : Reals S128x128) (x9 : Reals S128) :
    val_main_v90 (F := Ideal) x0 x1 x2 x3 x4 x5 x6 x7 x8 x9
      = layerArr (val_main_v40 (F := Ideal) x1) (val_main_v26 (F := Ideal) x1) (val_main_v46 (F := Ideal) x1)
          (val_main_v13 (F := Ideal) x1) (val_main_v71 (F := Ideal) x0 x1 x2 x3 x4 x5 x6 x7) x8 x9 := rfl

open Cert.ReferenceIdeal.Read in
theorem v94_eq (x0 : Reals S50000x128) (x1 : Words S2x800000) (x2 : Reals S128x128) (x3 : Reals S128)
    (x4 : Reals S128x128) (x5 : Reals S128) (x6 : Reals S128x128) (x7 : Reals S128) (x8 : Reals S128x128) (x9 : Reals S128)
    (x10 : Reals S128x128) (x11 : Reals S128) :
    val_main_v94 (F := Ideal) x0 x1 x2 x3 x4 x5 x6 x7 x8 x9 x10 x11
      = denseArr (val_main_v90 (F := Ideal) x0 x1 x2 x3 x4 x5 x6 x7 x8 x9) x10 x11 := rfl

/-! ## The shared index arrays are the graph's -/

theorem si_eq (x1 : Words S2x800000) :
    Cert.ReferenceIdeal.Read.val_main_v46 (F := Ideal) x1 = Cert.Graph.rawIdx (Cert.Graph.colWords x1) := rfl

theorem ri_eq (x1 : Words S2x800000) :
    Cert.ReferenceIdeal.Read.val_main_v40 (F := Ideal) x1 = Cert.Graph.normIdx (Cert.Graph.rowWords x1) := rfl

theorem ci_eq (x1 : Words S2x800000) :
    Cert.ReferenceIdeal.Read.val_main_v26 (F := Ideal) x1 = Cert.Graph.normIdx (Cert.Graph.colWords x1) := rfl

theorem dv_eq (x1 : Words S2x800000) :
    Cert.ReferenceIdeal.Read.val_main_v13 (F := Ideal) x1 = Cert.Graph.dinvArr (Cert.Graph.colWords x1) := rfl

/-! ## The layers of arrays are the network's layers of coordinates -/

theorem denseArr_eq (H : Reals S50000x128) (W : Reals S128x128) (b : Reals S128) :
    denseArr H W b = Cert.Views.arr (Cert.GraphLayers.dense (Cert.Views.mat H) (Cert.Views.mat W) (Cert.Views.vec b)) := by
  funext i
  obtain ⟨n, j, rfl⟩ : ∃ (n : Fin 50000) (j : Fin 128), i = ix2 n j := ⟨i 0, i 1, eq_ix2 i⟩
  rw [denseArr_read]
  rfl

theorem denseReluArr_eq (H : Reals S50000x128) (W : Reals S128x128) (b : Reals S128) :
    denseReluArr H W b
      = Cert.Views.arr (Cert.GraphLayers.denseRelu (Cert.Views.mat H) (Cert.Views.mat W) (Cert.Views.vec b)) := by
  funext i
  obtain ⟨n, j, rfl⟩ : ∃ (n : Fin 50000) (j : Fin 128), i = ix2 n j := ⟨i 0, i 1, eq_ix2 i⟩
  rw [denseReluArr_read]
  rfl

/-- A residual layer over arbitrary index arrays, in coordinates: the source and the target of an edge are its clamped
    gather words, the edges landing on a node are those whose scatter word is the node's number. -/
theorem layerArr_eq_gen (ri ci si : Words S850000x1) (dv : Reals S50000) (H : Reals S50000x128) (W : Reals S128x128)
    (b : Reals S128) :
    layerArr ri ci si dv H W b
      = Cert.Views.arr (Cert.GraphLayers.layerR
          (fun e : Fin 850000 => clampRow 50000 Cert.Graph.nodes_pos (ri (ix2 e (0 : Fin 1))))
          (fun e : Fin 850000 => clampRow 50000 Cert.Graph.nodes_pos (ci (ix2 e (0 : Fin 1))))
          (fun n : Fin 50000 => Finset.univ.filter fun e : Fin 850000 => (si (ix2 e (0 : Fin 1))).toInt = (n.val : Int))
          (fun n : Fin 50000 => dv (ix1 n))
          (Cert.Views.mat H) (Cert.Views.mat W) (Cert.Views.vec b)) := by
  funext i
  obtain ⟨n, j, rfl⟩ : ∃ (n : Fin 50000) (j : Fin 128), i = ix2 n j := ⟨i 0, i 1, eq_ix2 i⟩
  rw [layerArr_read]
  rfl

/-- A residual layer over the graph's index arrays is the network's layer over the graph's edges. -/
theorem layerArr_eq (x1 : Words S2x800000) (H : Reals S50000x128) (W : Reals S128x128) (b : Reals S128) :
    layerArr (Cert.Graph.normIdx (Cert.Graph.rowWords x1)) (Cert.Graph.normIdx (Cert.Graph.colWords x1))
        (Cert.Graph.rawIdx (Cert.Graph.colWords x1)) (Cert.Graph.dinvArr (Cert.Graph.colWords x1)) H W b
      = Cert.Views.arr (Cert.GraphLayers.layerR (Cert.Graph.src x1) (Cert.Graph.tgt x1) (Cert.Graph.hit x1) (Cert.Graph.dinv x1)
          (Cert.Views.mat H) (Cert.Views.mat W) (Cert.Views.vec b)) :=
  layerArr_eq_gen _ _ _ _ H W b

/-! ## The reference's result -/

/-- The reference program's result, at the ideal values, is the network with every message weighted before the sum,
    over the graph's edges, as a function of the twelve arguments. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    Cert.ReferenceIdeal.Read.val_main_v94 (F := Ideal) x0 x1 x2 x3 x4 x5 x6 x7 x8 x9 x10 x11
      = Cert.Views.arr (Cert.GraphLayers.netR (Cert.Graph.src x1) (Cert.Graph.tgt x1) (Cert.Graph.hit x1) (Cert.Graph.dinv x1)
          (Cert.Views.mat x0) (Cert.Views.mat x2) (Cert.Views.vec x3) (Cert.Views.mat x4) (Cert.Views.vec x5)
          (Cert.Views.mat x6) (Cert.Views.vec x7) (Cert.Views.mat x8) (Cert.Views.vec x9)
          (Cert.Views.mat x10) (Cert.Views.vec x11)) := by
  rw [v94_eq, v90_eq, v71_eq, v52_eq, v33_eq, ri_eq, ci_eq, si_eq, dv_eq]
  rw [layerArr_eq, layerArr_eq, layerArr_eq, denseReluArr_eq, denseArr_eq]
  rw [Cert.Views.mat_arr, Cert.Views.mat_arr, Cert.Views.mat_arr, Cert.Views.mat_arr]
  rfl

end Cert.ReferenceIdeal.RefValue

end
-- ==== Proof.lean ====
/-
  A residual graph-convolution network (an input layer, three layers h ← h + max(Â·(h·W) + b, 0) over a graph with self
  loops and symmetric degree factors, an output layer), as a program of eight pipelined regions among host gathers and
  scatters, against its plain reference, at the ideal values (extended reals, exact operations).

  The two programs differ in where a layer applies the degree factors.  The reference weights every message by
  dinv(source)·dinv(target) and then sums the messages onto their targets.  The kernel program scales the projected
  features h·W by dinv row by row, sums the gathered rows onto their targets, and multiplies the sum by the target's own
  factor inside the residual update.  The two agree because (a) an edge whose message lands on node n has n as its target,
  and (b) every factor is a non-negative real number (the reciprocal square root of max(degree, 1) ≥ 1), and a finite sum
  of extended reals may be multiplied by such a number term by term, whatever its terms are.  Changes of float format,
  the blocking of the node axis into ten row blocks and the order of the sums are invisible at the ideal values.

  The kernel program's result is read off its run: the result buffer holds what the fold through the thirteen segments
  leaves there (KernelRun), each region turns the arrays it finds into its whole-array function of them (Blocks0 … Blocks7
  over Payloads), the buffers are followed back to the launch (Fold), and the array-level network is the network of its
  coordinates (KernelValue over GraphData).  The reference's result is read off its generated run (RefValue).  Layers has
  the two networks and their equality, GraphFacts the two facts (a) and (b).
-/
import proofs.«139155_j37082747634276_2_alg».proof.Defs
import proofs.«139155_j37082747634276_2_alg».proof.Proof.Gen.Kernel
import proofs.«139155_j37082747634276_2_alg».proof.Proof.Gen.Kernel.Frame
import proofs.«139155_j37082747634276_2_alg».proof.Proof.Gen.KernelIdeal
import proofs.«139155_j37082747634276_2_alg».proof.Proof.Gen.KernelIdeal.Frame
import proofs.«139155_j37082747634276_2_alg».proof.Proof.Gen.ReferenceIdeal
import proofs.«139155_j37082747634276_2_alg».proof.Proof.Gen.ReferenceIdeal.Run
import proofs.«139155_j37082747634276_2_alg».proof.Proof.Gen.ReferenceIdeal.Read
import proofs.«139155_j37082747634276_2_alg».proof.Proof.Gen.Pre_finite_inputs
import proofs.«139155_j37082747634276_2_alg».proof.Proof.Layers
import proofs.«139155_j37082747634276_2_alg».proof.Proof.GraphFacts
import proofs.«139155_j37082747634276_2_alg».proof.Proof.KernelRun
import proofs.«139155_j37082747634276_2_alg».proof.Proof.KernelValue
import proofs.«139155_j37082747634276_2_alg».proof.Proof.Fold
import proofs.«139155_j37082747634276_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments: the generated frame. -/
theorem frame_kernel : Cert.frame_Kernel := fun m ρ _ => Cert.Kernel.Gen.frame m ρ

/-- The idealized program runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same array: the kernel program's result buffer holds its array-level network, which is
    the network `netK` of its coordinates; the reference's result is `netR`; and the two networks agree, every factor
    being a non-negative real number and every edge landing on a node carrying that node's factor. -/
theorem algebraic : Cert.algebraic_KernelIdeal_ReferenceIdeal := by
  intro m ρ m' ρ' _ hagree
  refine ⟨fun c => Cert.KernelIdeal.Gen.W13 m ρ c (Proc.devRef .tc Cert.KernelIdeal.main_v60),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v94_eq, e0, e1, e2, e3, e4, e5, e6, e7, e8, e9, e10, e11,
    Cert.ReferenceIdeal.RefValue.result_eq]
  refine Eq.symm ((Cert.KernelIdeal.Fold.result m ρ c).trans ?_)
  rw [Cert.KernelIdeal.Nested.netArr_eq,
    Cert.GraphLayers.netK_eq_netR (Cert.Graph.src _) (Cert.Graph.tgt (Cert.KernelIdeal.Fold.eiOf m c)) (Cert.Graph.hit _)
      (Cert.Graph.dinv _) (Cert.Graph.dinv_real _) (Cert.Graph.tgt_of_hit _)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
